-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "neg_inv_102400" .f32 0xB723D70A#32 ((-1 / 102400 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel

variable [Facts]

def fn {F : FTy → Type} [FloatOps F] (main_arg0 : FVec F S8x2048x256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  main_v3
-- ==== Kernel.lean ====
abbrev S8x2048x256 : Shape := ⟨3, ![8, 2048, 256]⟩
abbrev S8x1x1 : Shape := ⟨3, ![8, 1, 1]⟩
abbrev S1x512x256 : Shape := ⟨3, ![1, 512, 256]⟩
abbrev S1x2048x256 : Shape := ⟨3, ![1, 2048, 256]⟩
abbrev S1x1x1 : Shape := ⟨3, ![1, 1, 1]⟩
abbrev S1x2048 : Shape := ⟨2, ![1, 2048]⟩
abbrev S512x1 : Shape := ⟨2, ![512, 1]⟩
abbrev S2048x256 : Shape := ⟨2, ![2048, 256]⟩
abbrev S2048 : Shape := ⟨1, ![2048]⟩
abbrev S2048x1 : Shape := ⟨2, ![2048, 1]⟩
abbrev S512x256 : Shape := ⟨2, ![512, 256]⟩
abbrev S512 : Shape := ⟨1, ![512]⟩
abbrev S256x2048 : Shape := ⟨2, ![256, 2048]⟩
abbrev S512x2048 : Shape := ⟨2, ![512, 2048]⟩
abbrev S1x512x1 : Shape := ⟨3, ![1, 512, 1]⟩
abbrev S1 : Shape := ⟨1, ![1]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S8x2048x256, .f32⟩
  | .hbm, ⟨1, _⟩ => ⟨S8x1x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x512x256, .f32⟩
  | .local _ .vmem, ⟨1, _⟩ => ⟨S1x512x256, .f32⟩
  | .local _ .vmem, ⟨2, _⟩ => ⟨S1x2048x256, .f32⟩
  | .local _ .vmem, ⟨3, _⟩ => ⟨S1x2048x256, .f32⟩
  | .local _ .vmem, ⟨4, _⟩ => ⟨S1x1x1, .f32⟩
  | .local _ .vmem, ⟨5, _⟩ => ⟨S1x1x1, .f32⟩
  | .local _ .vmem, ⟨6, _⟩ => ⟨S1x2048, .f32⟩
  | .local _ .vmem, ⟨7, _⟩ => ⟨S512x1, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_17 : BitVec 32 := 0#32
  let v35 : BitVec 1 := Scalar.cmpi .ne v34 c0_i32_17
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  reduces_S2048x256_S2048 : S2048x256.Reduces [1] S2048
  shapeCasts_S2048_S2048x1 : S2048.ShapeCasts S2048x1
  transposes_S2048x1_p1_0_S1x2048 : S2048x1.Transposes [1, 0] S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1x1_S1x1x1_0_0_0 : ∀ a, (![0, 0, 0] : Fin 3 → Nat) a + S1x1x1.size a ≤ S1x1x1.size a
  h_S1x1x1 : 0 < S1x1x1.numel
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  reduces_S512x256_S512 : S512x256.Reduces [1] S512
  shapeCasts_S512_S512x1 : S512.ShapeCasts S512x1
  bitsLt_bf16_f32 : FTy.bits .bf16 < FTy.bits .f32
  transposes_S2048x256_p1_0_S256x2048 : S2048x256.Transposes [1, 0] S256x2048
  broadcasts_S512x1_S512x2048 : S512x1.Broadcasts S512x2048
  broadcasts_S1x2048_S512x2048 : S1x2048.Broadcasts S512x2048
  reduces_S512x2048_S512 : S512x2048.Reduces [1] S512
  shapeCasts_S512x1_S1x512x1 : S512x1.ShapeCasts S1x512x1
  reduces_S1x512x1_S1 : S1x512x1.Reduces [1, 2] S1
  shapeCasts_S1_S1x1x1 : S1.ShapeCasts S1x1x1
  inpos_S1x1x1_p0_0_0 : ∀ a, (![0, 0, 0] : Fin 3 → Nat) a < S1x1x1.size a
  reducesTo_S8x1x1_S_d0_1_2 : S8x1x1.ReducesTo [0, 1, 2] S_
  h_S_ : 0 < S_.numel
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S8x2048x256.size a
  hwx0_0 : ∀ i : grid0.Coords, EltTy.bits .f32 = 32 ∨ (Rect.block (s := S8x2048x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x256.size a
  hwx0_1 : ∀ i : grid0.Coords, EltTy.bits .f32 = 32 ∨ (Rect.block (s := S8x2048x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S8x1x1.size a
  hwx0_2 : ∀ i : grid0.Coords, EltTy.bits .f32 = 32 ∨ (Rect.block (s := S8x1x1) S1x1x1.size (cc0_transform_2 i) (hinb0_2 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S8x2048x256 : Shape := ⟨3, ![8, 2048, 256]⟩
abbrev S_ : Shape := ⟨0, ![]⟩
abbrev S8x2048 : Shape := ⟨2, ![8, 2048]⟩
abbrev S8x2048x2048 : Shape := ⟨3, ![8, 2048, 2048]⟩
abbrev S8x2048x1 : Shape := ⟨3, ![8, 2048, 1]⟩
abbrev S8x1x2048 : Shape := ⟨3, ![8, 1, 2048]⟩
abbrev S2048x2048 : Shape := ⟨2, ![2048, 2048]⟩
abbrev S1x2048x2048 : Shape := ⟨3, ![1, 2048, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S_, .f32⟩
  | .hbm, ⟨3, _⟩ => ⟨S8x2048, .f32⟩
  | .hbm, ⟨4, _⟩ => ⟨S8x2048x2048, .f32⟩
  | .hbm, ⟨5, _⟩ => ⟨S8x2048x1, .f32⟩
  | .hbm, ⟨6, _⟩ => ⟨S8x1x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S2048x2048, .i32⟩
  | .hbm, ⟨26, _⟩ => ⟨S2048x2048, .i32⟩
  | .hbm, ⟨27, _⟩ => ⟨S_, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S2048x2048, .i1⟩
  | .hbm, ⟨32, _⟩ => ⟨S1x2048x2048, .i1⟩
  | .hbm, ⟨33, _⟩ => ⟨S_, .f32⟩
  | .hbm, ⟨34, _⟩ => ⟨S_, .f32⟩
  | .hbm, ⟨35, _⟩ => ⟨S8x2048x2048, .i1⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  reducesTo_S8x2048x256_S8x2048_d2 : S8x2048x256.ReducesTo [2] S8x2048
  h_S_ : 0 < S_.numel
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S_d0_1_2 : S8x2048x2048.ReducesTo [0, 1, 2] S_
  dot_S8x2048x256_S8x2048x256_S8x2048x2048_2_2_1_1_0_0_wf : DotDims.WF S8x2048x256 S8x2048x256 S8x2048x2048 [2] [2] [1] [1] [0] [0]

variable [Facts₀]

def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf

class Facts : Prop extends Facts₀ where

variable [Facts]
-- ==== Proof.KFrameData.lean ====
/-
  The proof data of the kernel's one pipelined region, for any float instance.

  The grid has 8 rows of 4 points: row `b` is cloud `b`, point `qi` of the row is the tile of 512 query points
  `qi·512 … qi·512+511`. Window 0 is the tile of queries (fetched at every point), window 1 the whole cloud (fetched at the
  first point of a row and kept), window 2 the cloud's one output number (written back after the last point of the row).
  Two scratch buffers are carried from point to point: the squared norms of the cloud's points (written at the first point
  of a row) and the 512 running row sums (zeroed at the first point of a row, added to at every point). What they hold after
  each point is defined by recursion on the point.
-/
import proofs.«110182_j41772851921541_2_alg».proof.Proof.Gen.Kernel.Launch
import proofs.«110182_j41772851921541_2_alg».proof.Proof.Gen.Kernel.Skeleton
import proofs.«110182_j41772851921541_2_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The region's entry contents and the windows' blocks -/

/-- The TensorCore buffers of core `c` when the region is entered: the launch contents (no host operation runs before it). -/
abbrev V0 (c : Dev nD) : Valuation τ sig (Elt F) := fun b => m (c, b)
abbrev V (c : Dev nD) (b : Ref sig .tc) : Buf (Elt F) ((c : Thread nD τ).loc b) := V0 m c (Proc.devRef .tc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The two scratch buffers as memrefs. -/
abbrev scM0 : Memref sig .tc .vmem S1x2048 .f32 := Memref.whole cc0_scratch0
abbrev scM1 : Memref sig .tc .vmem S512x1 .f32 := Memref.whole cc0_scratch1

/-! ## What the scratches hold after each point -/

/-- After point `n`: the squared norms of the cloud's points, and the running row sums. At the first point of a row both are
    made afresh from the blocks; at a later point the norms stay and the tile's row sums are added to the running sums. -/
def stAt (c : Dev nD) : (n : ℕ) → n < cfg0.N → Vec F S1x2048 .f32 × Vec F S512x1 .f32
  | 0, hn => (k0_pay2 (iblk m c 1 ⟨0, hn⟩), k0_pay5 (iblk m c 0 ⟨0, hn⟩) (iblk m c 1 ⟨0, hn⟩) (k0_pay2 (iblk m c 1 ⟨0, hn⟩)) (k0_pay3 (F := F)))
  | n + 1, hn =>
    if (n + 1) % 4 = 0 then
      (k0_pay2 (iblk m c 1 ⟨n + 1, hn⟩), k0_pay5 (iblk m c 0 ⟨n + 1, hn⟩) (iblk m c 1 ⟨n + 1, hn⟩) (k0_pay2 (iblk m c 1 ⟨n + 1, hn⟩)) (k0_pay3 (F := F)))
    else
      ((stAt c n (Nat.lt_of_succ_lt hn)).1,
        k0_pay5 (iblk m c 0 ⟨n + 1, hn⟩) (iblk m c 1 ⟨n + 1, hn⟩) (stAt c n (Nat.lt_of_succ_lt hn)).1 (stAt c n (Nat.lt_of_succ_lt hn)).2)

/-- At the first point of a row. -/
theorem stAt_first (c : Dev nD) (t : Fin cfg0.N) (h0 : t.val % 4 = 0) :
    stAt m c t.val t.isLt = (k0_pay2 (iblk m c 1 t), k0_pay5 (iblk m c 0 t) (iblk m c 1 t) (k0_pay2 (iblk m c 1 t)) (k0_pay3 (F := F))) := by
  obtain ⟨n, hn⟩ := t
  cases n with
  | zero => rfl
  | succ n => exact if_pos h0

/-- At a later point of a row. -/
theorem stAt_later (c : Dev nD) (t : Fin cfg0.N) (h0 : ¬ t.val % 4 = 0) :
    stAt m c t.val t.isLt = ((stAt m c (t.val - 1) (Nat.lt_of_le_of_lt (Nat.sub_le _ _) t.isLt)).1,
      k0_pay5 (iblk m c 0 t) (iblk m c 1 t) (stAt m c (t.val - 1) (Nat.lt_of_le_of_lt (Nat.sub_le _ _) t.isLt)).1
        (stAt m c (t.val - 1) (Nat.lt_of_le_of_lt (Nat.sub_le _ _) t.isLt)).2) := by
  obtain ⟨n, hn⟩ := t
  cases n with
  | zero => exact absurd (Nat.zero_mod _) h0
  | succ n => exact if_neg h0

/-! ## The invariant between points -/

/-- Before the first point the two scratches hold anything; after point `n` what `stAt` says. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0 fullShare (stAt m c n hn).1 ∗ owns (c : Thread nD τ) scM1 fullShare (stAt m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0 fullShare (stAt m c n hn).1 ∗ owns (c : Thread nD τ) scM1 fullShare (stAt m c n hn).2) := rfl

theorem PhiS_pos (c : Dev nD) (n : ℕ) (h : n ≤ cfg0.N) (hz : n ≠ 0) :
    PhiS m c n h = iprop(owns (c : Thread nD τ) scM0 fullShare (stAt m c (n - 1) (by omega)).1
      ∗ owns (c : Thread nD τ) scM1 fullShare (stAt m c (n - 1) (by omega)).2) := by
  cases n with
  | zero => exact absurd rfl hz
  | succ n => rfl

/-- The scoped buffers no window stages are the two scratches, each at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

/-! ## The proof data -/

/-- The arrays as the region finds them; after the body each input's buffer at its block, the output's at zero after the first
    point of a row and at the sum of the running row sums after the last; the two input windows share one array, each at half
    of it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => if t.val % 4 = 3 then k0_pay1 (stAt m c t.val t.isLt).2 else k0_pay4 (F := F)
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = if t.val % 4 = 3 then k0_pay1 (stAt m c t.val t.isLt).2 else k0_pay4 (F := F) := by dsimp only [dats]

/-- Each input's current staging buffer holds its block at every point, fetched there or not (unfetched, the block index has not
    moved). -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-! ## The branch conditions and the idle points, decided over the grid -/

theorem N_eq : cfg0.N = 32 := N_0

theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
theorem hcond2 : ∀ t : Fin cfg0.N, k0_cond2 (grid0.coords t) = 1#1 ↔ t.val % 4 = 3 :=
  (by decide +kernel : ∀ t : Fin grid0.N, k0_cond2 (grid0.coords t) = 1#1 ↔ t.val % 4 = 3)

theorem live0 : ∀ t : Fin cfg0.N, cfg0.idle 0 (grid0.coords t) = false := by decide +kernel
theorem live1 : ∀ t : Fin cfg0.N, cfg0.idle 1 (grid0.coords t) = false := by decide +kernel
theorem live2_first : ∀ t : Fin cfg0.N, t.val % 4 = 0 → cfg0.idle 2 (grid0.coords t) = false := by decide +kernel
theorem live2_last : ∀ t : Fin cfg0.N, t.val % 4 = 3 → cfg0.idle 2 (grid0.coords t) = false := by decide +kernel
theorem idle2_mid : ∀ t : Fin cfg0.N, ¬ t.val % 4 = 0 → ¬ t.val % 4 = 3 → cfg0.idle 2 (grid0.coords t) = true := by decide +kernel
theorem noflush2_mid : ∀ t : Fin cfg0.N, ¬ t.val % 4 = 0 → ¬ t.val % 4 = 3 → (cfg0.win 2).flush t = false := by decide +kernel

end Cert.Kernel.Frame

end
-- ==== Proof.KBodyFirst.lean ====
/-
  The kernel body at the first point of a cloud's row of the grid.
-/
import proofs.«110182_j41772851921541_2_alg».proof.Proof.Gen.Kernel.Launch
import proofs.«110182_j41772851921541_2_alg».proof.Proof.Gen.Kernel.Skeleton
import proofs.«110182_j41772851921541_2_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → Nat) = fun _ => 0 := by funext a; fin_cases a <;> rfl
private theorem hz3 : (![0, 0, 0] : Fin 3 → Nat) = fun _ => 0 := by funext a; fin_cases a <;> rfl

set_option maxHeartbeats 2000000 in
/-- The body writes the squared norms of the cloud's points into the first scratch, zeroes the accumulator scratch and the output
    block, then adds this tile's row sums to the (zeroed) accumulator. Nothing it loaded from the two scratches or the output block
    before overwriting them is used. -/
theorem body_A (c : Dev nD) (i : grid0.Coords)
    (arg2 : Memref sig .tc .vmem S1x512x256 .f32) (harg2 : arg2.IsWhole) (arg3 : Memref sig .tc .vmem S1x2048x256 .f32) (harg3 : arg3.IsWhole)
    (arg4 : Memref sig .tc .vmem S1x1x1 .f32) (harg4 : arg4.IsWhole) (arg5 : Memref sig .tc .vmem S1x2048 .f32) (harg5 : arg5.IsWhole)
    (arg6 : Memref sig .tc .vmem S512x1 .f32) (harg6 : arg6.IsWhole)
    (h1 : k0_cond1 i = 1#1) (h2 : ¬ k0_cond2 i = 1#1)
    (x2 : Vec F S1x512x256 .f32) (x3 : Vec F S1x2048x256 .f32) (x4 : Vec F S1x1x1 .f32) (x5 : Vec F S1x2048 .f32) (x6 : Vec F S512x1 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (iprop(owns (c : Thread nD τ) arg2 fullShare x2 ∗ owns (c : Thread nD τ) arg3 fullShare x3 ∗ owns (c : Thread nD τ) arg4 fullShare (k0_pay4 (F := F))
            ∗ owns (c : Thread nD τ) arg5 fullShare (k0_pay2 x3) ∗ owns (c : Thread nD τ) arg6 fullShare (k0_pay5 x2 x3 (k0_pay2 x3) (k0_pay3 (F := F)))) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; swap; (· iexact H4); ipureintro
    refine (View.read_writes_eq_canon _ _ _ ?_).trans ?_
    · intro y; refine ⟨_, List.mem_cons_self .., ?_⟩; exact View.mem_set_unit_zero hz3 Facts₀.inb_S1x1x1_S1x1x1_0_0_0 y
    · rw [View.canon_cons_unit_zero hz3]
  isplitl [H5]
  · iexists _; isplitr; swap; (· iexact H5); ipureintro
    sl_unfold_words
    refine (View.read_writes_eq_canon _ _ _ ?_).trans ?_
    · intro y; refine ⟨_, List.mem_cons_self .., ?_⟩; exact View.mem_set_unit_zero hz2 Facts₀.inb_S1x2048_S1x2048_0_0 y
    · rw [View.canon_cons_unit_zero hz2]
      simp only [View.readAt_eq_ld, harg2.read_unread, harg3.read_unread, harg4.read_unread, harg5.read_unread, harg6.read_unread,
        View.ld_unit_zero (S := S1x512x256) hz3, View.ld_unit_zero (S := S1x2048x256) hz3, View.ld_unit_zero (S := S1x2048) hz2, View.ld_unit_zero (S := S512x1) hz2,
        View.ld_unit_zero (S := S1x1x1) hz3, View.readCov_unit_zero (S := S1x2048) _ hz2, View.readCov_unit_zero (S := S512x1) _ hz2, View.readCov_unit_zero (S := S1x1x1) _ hz3]
  iexists _; isplitr; swap; (· iexact H6); ipureintro
  sl_unfold_words
  refine (View.read_writes_eq_canon _ _ _ ?_).trans ?_
  · intro y; refine ⟨_, List.mem_cons_self .., ?_⟩; exact View.mem_set_unit_zero hz2 Facts₀.inb_S512x1_S512x1_0_0 y
  · rw [View.canon_cons_unit_zero hz2]
    simp only [View.readAt_eq_ld, harg2.read_unread, harg3.read_unread, harg4.read_unread, harg5.read_unread, harg6.read_unread,
        View.ld_unit_zero (S := S1x512x256) hz3, View.ld_unit_zero (S := S1x2048x256) hz3, View.ld_unit_zero (S := S1x2048) hz2, View.ld_unit_zero (S := S512x1) hz2,
        View.ld_unit_zero (S := S1x1x1) hz3, View.readCov_unit_zero (S := S1x2048) _ hz2, View.readCov_unit_zero (S := S512x1) _ hz2, View.readCov_unit_zero (S := S1x1x1) _ hz3]

end Cert.Kernel.Body
end
-- ==== Proof.KBodyMid.lean ====
/-
  The kernel body at a point in the middle of a cloud's row of the grid (neither its first point nor its last).
-/
import proofs.«110182_j41772851921541_2_alg».proof.Proof.Gen.Kernel.Launch
import proofs.«110182_j41772851921541_2_alg».proof.Proof.Gen.Kernel.Skeleton
import proofs.«110182_j41772851921541_2_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → Nat) = fun _ => 0 := by funext a; fin_cases a <;> rfl
private theorem hz3 : (![0, 0, 0] : Fin 3 → Nat) = fun _ => 0 := by funext a; fin_cases a <;> rfl

set_option maxHeartbeats 1000000 in
/-- The body adds this tile's row sums to the accumulator scratch and touches nothing else. -/
theorem body_B (c : Dev nD) (i : grid0.Coords)
    (arg2 : Memref sig .tc .vmem S1x512x256 .f32) (harg2 : arg2.IsWhole) (arg3 : Memref sig .tc .vmem S1x2048x256 .f32) (harg3 : arg3.IsWhole)
    (arg4 : Memref sig .tc .vmem S1x1x1 .f32) (harg4 : arg4.IsWhole) (arg5 : Memref sig .tc .vmem S1x2048 .f32) (harg5 : arg5.IsWhole)
    (arg6 : Memref sig .tc .vmem S512x1 .f32) (harg6 : arg6.IsWhole)
    (h1 : ¬ k0_cond1 i = 1#1) (h2 : ¬ k0_cond2 i = 1#1)
    (x2 : Vec F S1x512x256 .f32) (x3 : Vec F S1x2048x256 .f32) (x4 : Vec F S1x1x1 .f32) (x5 : Vec F S1x2048 .f32) (x6 : Vec F S512x1 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k0_pay5 x2 x3 x5 x6)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr; swap; (· iexact H6); ipureintro
  refine (View.read_writes_eq_canon _ _ _ ?_).trans ?_
  · intro y; refine ⟨_, List.mem_cons_self .., ?_⟩; exact View.mem_set_unit_zero hz2 Facts₀.inb_S512x1_S512x1_0_0 y
  · rw [View.canon_cons_unit_zero hz2]
    simp only [View.readAt_eq_ld, harg2.read_unread, harg3.read_unread, harg4.read_unread, harg5.read_unread, harg6.read_unread,
        View.ld_unit_zero (S := S1x512x256) hz3, View.ld_unit_zero (S := S1x2048x256) hz3, View.ld_unit_zero (S := S1x2048) hz2, View.ld_unit_zero (S := S512x1) hz2,
        View.ld_unit_zero (S := S1x1x1) hz3, View.readCov_unit_zero (S := S1x2048) _ hz2, View.readCov_unit_zero (S := S512x1) _ hz2, View.readCov_unit_zero (S := S1x1x1) _ hz3]

end Cert.Kernel.Body
end
-- ==== Proof.KBodyLast.lean ====
/-
  The kernel body at the last point of a cloud's row of the grid.
-/
import proofs.«110182_j41772851921541_2_alg».proof.Proof.Gen.Kernel.Launch
import proofs.«110182_j41772851921541_2_alg».proof.Proof.Gen.Kernel.Skeleton
import proofs.«110182_j41772851921541_2_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → Nat) = fun _ => 0 := by funext a; fin_cases a <;> rfl
private theorem hz3 : (![0, 0, 0] : Fin 3 → Nat) = fun _ => 0 := by funext a; fin_cases a <;> rfl

set_option maxHeartbeats 2000000 in
/-- The body adds this tile's row sums to the accumulator scratch, then stores the sum of the accumulator's 512 entries into the
    output block. -/
theorem body_C (c : Dev nD) (i : grid0.Coords)
    (arg2 : Memref sig .tc .vmem S1x512x256 .f32) (harg2 : arg2.IsWhole) (arg3 : Memref sig .tc .vmem S1x2048x256 .f32) (harg3 : arg3.IsWhole)
    (arg4 : Memref sig .tc .vmem S1x1x1 .f32) (harg4 : arg4.IsWhole) (arg5 : Memref sig .tc .vmem S1x2048 .f32) (harg5 : arg5.IsWhole)
    (arg6 : Memref sig .tc .vmem S512x1 .f32) (harg6 : arg6.IsWhole)
    (h1 : ¬ k0_cond1 i = 1#1) (h2 : k0_cond2 i = 1#1)
    (x2 : Vec F S1x512x256 .f32) (x3 : Vec F S1x2048x256 .f32) (x4 : Vec F S1x1x1 .f32) (x5 : Vec F S1x2048 .f32) (x6 : Vec F S512x1 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (iprop(owns (c : Thread nD τ) arg2 fullShare x2 ∗ owns (c : Thread nD τ) arg3 fullShare x3 ∗ owns (c : Thread nD τ) arg4 fullShare (k0_pay1 (k0_pay5 x2 x3 x5 x6))
            ∗ owns (c : Thread nD τ) arg5 fullShare x5 ∗ owns (c : Thread nD τ) arg6 fullShare (k0_pay5 x2 x3 x5 x6)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; swap; (· iexact H4); ipureintro
    sl_unfold_words
    refine (View.read_writes_eq_canon _ _ _ ?_).trans ?_
    · intro y; refine ⟨_, List.mem_cons_self .., ?_⟩; exact View.mem_set_unit_zero hz3 Facts₀.inb_S1x1x1_S1x1x1_0_0_0 y
    · rw [View.canon_cons_unit_zero hz3]
      simp only [View.readAt_eq_ld, harg2.read_unread, harg3.read_unread, harg4.read_unread, harg5.read_unread, harg6.read_unread,
        View.ld_unit_zero (S := S1x512x256) hz3, View.ld_unit_zero (S := S1x2048x256) hz3, View.ld_unit_zero (S := S1x2048) hz2, View.ld_unit_zero (S := S512x1) hz2,
        View.ld_unit_zero (S := S1x1x1) hz3, View.readCov_unit_zero (S := S1x2048) _ hz2, View.readCov_unit_zero (S := S512x1) _ hz2, View.readCov_unit_zero (S := S1x1x1) _ hz3]
  isplitl [H5]
  · iexists _; isplitr; · ipureintro; exact harg5.read_unread _
    iexact H5
  iexists _; isplitr; swap; (· iexact H6); ipureintro
  sl_unfold_words
  refine (View.read_writes_eq_canon _ _ _ ?_).trans ?_
  · intro y; refine ⟨_, List.mem_cons_self .., ?_⟩; exact View.mem_set_unit_zero hz2 Facts₀.inb_S512x1_S512x1_0_0 y
  · rw [View.canon_cons_unit_zero hz2]
    simp only [View.readAt_eq_ld, harg2.read_unread, harg3.read_unread, harg4.read_unread, harg5.read_unread, harg6.read_unread,
        View.ld_unit_zero (S := S1x512x256) hz3, View.ld_unit_zero (S := S1x2048x256) hz3, View.ld_unit_zero (S := S1x2048) hz2, View.ld_unit_zero (S := S512x1) hz2,
        View.ld_unit_zero (S := S1x1x1) hz3, View.readCov_unit_zero (S := S1x2048) _ hz2, View.readCov_unit_zero (S := S512x1) _ hz2, View.readCov_unit_zero (S := S1x1x1) _ hz3]

end Cert.Kernel.Body
end
-- ==== Proof.KSoundBody.lean ====
/-
  The body obligation of the kernel's region: at every grid point the body, run on the windows' current staging buffers at what
  they hold and the two scratches at what the point before left, leaves each at what the proof data says.
-/
import proofs.«110182_j41772851921541_2_alg».proof.Proof.Gen.Kernel.Launch
import proofs.«110182_j41772851921541_2_alg».proof.Proof.Gen.Kernel.Skeleton
import proofs.«110182_j41772851921541_2_alg».proof.Proof.Gen.Kernel.Points
import proofs.«110182_j41772851921541_2_alg».proof.Proof.KFrameData
import proofs.«110182_j41772851921541_2_alg».proof.Proof.KBodyFirst
import proofs.«110182_j41772851921541_2_alg».proof.Proof.KBodyMid
import proofs.«110182_j41772851921541_2_alg».proof.Proof.KBodyLast
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Body

variable (m : (ℓ : Loc nD τ sig) → Buf (Elt F) ℓ)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (st0_0 t) fullShare ((dats m 0 c).after 0 t) from by
    unfold Dat.leavesExact; rw [live0 t], after0]
  rw [show (dats m 0 c).leavesExact 1 t = owns (c : Thread nD τ) (st0_1 t) fullShare ((dats m 0 c).after 1 t) from by
    unfold Dat.leavesExact; rw [live1 t], after1]
  have hN : t.val < 32 := lt_of_lt_of_eq t.isLt N_eq
  by_cases h0 : t.val % 4 = 0
  · have h3 : ¬ t.val % 4 = 3 := by omega
    rw [show (dats m 0 c).leavesExact 2 t = owns (c : Thread nD τ) (st0_2 t) fullShare ((dats m 0 c).after 2 t) from by
      unfold Dat.leavesExact; rw [live2_first t h0], after2, if_neg h3]
    rw [stAt_first m c t h0]
    by_cases hz : t.val = 0
    · rw [PhiS_castSucc m c t, PhiS_zero m c _ _ hz, scoped_eq]
      iintro ⟨⟨⟨%e0, HS0⟩, ⟨%e1, HS1⟩⟩, Ho, ⟨%d0, H0⟩, ⟨%d1, H1⟩, ⟨%d2, H2⟩⟩
      iapply (body_A c (grid0.coords t) _ _ _ _ _ _ _ _ _ _ ((hcond1 t).mpr h0) (fun h => h3 ((hcond2 t).mp h)) (iblk m c 0 t) (iblk m c 1 t) _ e0 e1 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1]
      · isplitl [HS0] <;> iassumption
      isplitl [Ho]; · iexact Ho
      isplitl [H0]; · iexact H0
      isplitl [H1] <;> iassumption
    · rw [PhiS_castSucc m c t, PhiS_pos m c _ _ hz]
      iintro ⟨⟨HS0, HS1⟩, Ho, ⟨%d0, H0⟩, ⟨%d1, H1⟩, ⟨%d2, H2⟩⟩
      iapply (body_A c (grid0.coords t) _ _ _ _ _ _ _ _ _ _ ((hcond1 t).mpr h0) (fun h => h3 ((hcond2 t).mp h)) (iblk m c 0 t) (iblk m c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1]
      · isplitl [HS0] <;> iassumption
      isplitl [Ho]; · iexact Ho
      isplitl [H0]; · iexact H0
      isplitl [H1] <;> iassumption
  · have hz : t.val ≠ 0 := fun e => h0 (by rw [e])
    rw [stAt_later m c t h0, PhiS_castSucc m c t, PhiS_pos m c _ _ hz]
    by_cases h3 : t.val % 4 = 3
    · rw [show (dats m 0 c).leavesExact 2 t = owns (c : Thread nD τ) (st0_2 t) fullShare ((dats m 0 c).after 2 t) from by
        unfold Dat.leavesExact; rw [live2_last t h3], after2, if_pos h3, stAt_later m c t h0]
      iintro ⟨⟨HS0, HS1⟩, Ho, ⟨%d0, H0⟩, ⟨%d1, H1⟩, ⟨%d2, H2⟩⟩
      iapply (body_C c (grid0.coords t) _ _ _ _ _ _ _ _ _ _ (fun h => h0 ((hcond1 t).mp h)) ((hcond2 t).mpr h3) (iblk m c 0 t) (iblk m c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1]
      · isplitl [HS0] <;> iassumption
      isplitl [Ho]; · iexact Ho
      isplitl [H0]; · iexact H0
      isplitl [H1] <;> iassumption
    · rw [Dat.leavesExact_idle (dats m 0 c) 2 t (idle2_mid t h0 h3) (noflush2_mid t h0 h3)]
      iintro ⟨⟨HS0, HS1⟩, Ho, ⟨%d0, H0⟩, ⟨%d1, H1⟩, ⟨%d2, H2⟩⟩
      iapply (body_B c (grid0.coords t) _ _ _ _ _ _ _ _ _ _ (fun h => h0 ((hcond1 t).mp h)) (fun h => h3 ((hcond2 t).mp h)) (iblk m c 0 t) (iblk m c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1]
      · isplitl [HS0] <;> iassumption
      isplitl [Ho]; · iexact Ho
      isplitl [H0]; · iexact H0
      isplitl [H1]; · iexact H1
      iexists d2; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Frame

end
-- ==== Proof.KFrameRun.lean ====
/-
  The run of the kernel program, for any float instance: the one pipelined region, then seven host operations.

  The region's two input windows read ONE array (the argument): the array's points-to is split in two halves at entry, one per
  window, and joined again at exit, where the output window's array holds what the write-backs left. The host operations after
  the region then run over all the unscoped buffers, the output array at the region's result.
-/
import proofs.«110182_j41772851921541_2_alg».proof.Proof.Gen.Kernel.Launch
import proofs.«110182_j41772851921541_2_alg».proof.Proof.Gen.Kernel.Skeleton
import proofs.«110182_j41772851921541_2_alg».proof.Proof.Gen.Kernel.Points
import proofs.«110182_j41772851921541_2_alg».proof.Proof.KSoundBody
import Idealize.ShloMosaic.Lib.Pipeline.Frame
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole user component. -/
abbrev EP : Emb (UR sig nD τ) (MT nD τ sig Unit (Elt F) ℕ (UR sig nD τ) ℕ) := emb₁

abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- The core owes nothing, before, between and after. -/
abbrev R (c : Dev nD) : sProp 𝕄 := iprop(∃ W, owes (c : Thread nD τ) (0 : CellTallies nD τ sig Unit) W)

/-! ## The unscoped buffers, one by one -/

/-- The nine unscoped buffers of the core at a valuation. -/
theorem ub_eq (c : Dev nD) (W : (b : Ref sig .tc) → Buf (Elt F) ((c : Thread nD τ).loc b)) :
    (unscopedBufs c W : sProp 𝕄)
      = iprop((((c : Thread nD τ).loc main_arg0) ↦{fullShare} W main_arg0) ∗ (((c : Thread nD τ).loc main_v0) ↦{fullShare} W main_v0)
        ∗ (((c : Thread nD τ).loc main_cst) ↦{fullShare} W main_cst) ∗ (((c : Thread nD τ).loc main_v1) ↦{fullShare} W main_v1)
        ∗ (((c : Thread nD τ).loc main_cst_0) ↦{fullShare} W main_cst_0) ∗ (((c : Thread nD τ).loc main_v2) ↦{fullShare} W main_v2)
        ∗ (((c : Thread nD τ).loc main_cst_1) ↦{fullShare} W main_cst_1) ∗ (((c : Thread nD τ).loc main_v3) ↦{fullShare} W main_v3)
        ∗ (((c : Thread nD τ).loc main_v4) ↦{fullShare} W main_v4)) := by
  unfold unscopedBufs
  rw [bigSep_eq_bigSepL_of_eq [main_arg0, main_v0, main_cst, main_v1, main_cst_0, main_v2, main_cst_1, main_v3, main_v4] (by decide) (by decide)]
  rfl

/-- The pipeline's arrays: the argument's two halves, one per input window, and the output array whole. -/
theorem arrays_eq3 (c : Dev nD) (A : (w : Fin cfg0.W) → Buf (Elt F) ((cfg0.win w).arr.view.loc (c : Thread nD τ))) :
    ((dats m 0 c).arrays A : sProp 𝕄)
      = iprop((((c : Thread nD τ).loc main_arg0) ↦{fullShare.left} A 0) ∗ (((c : Thread nD τ).loc main_arg0) ↦{fullShare.right} A 1)
        ∗ (((c : Thread nD τ).loc main_v0) ↦{fullShare} A 2)) := by
  unfold Dat.arrays
  rw [bigSep_W0, (arr_whole0 0).set_eq_univ, (arr_whole0 2).set_eq_univ]
  rfl

/-! ## After the region -/

/-- What the region leaves in the output array. -/
abbrev outArr (c : Dev nD) : Buf (Elt F) ((c : Thread nD τ).loc main_v0) := (dats m 0 c).arrAt 2 cfg0.N

/-- The buffers after the region: as launched, the output array at the region's result. -/
def W (c : Dev nD) : Valuation τ sig (Elt F) := Function.update (V0 m c) (Proc.devRef .tc main_v0) (outArr m c)

theorem W_out (c : Dev nD) : W m c (Proc.devRef .tc main_v0) = outArr m c := by
  unfold W; exact Function.update_self _ _ _

theorem W_other (c : Dev nD) (b : Ref sig .tc) (hb : b ≠ main_v0) : W m c (Proc.devRef .tc b) = V m c b := by
  unfold W; exact Function.update_of_ne (StableHlo.devRef_ne_of_ne hb) _ _

/-- An input window's array is never written. -/
theorem arrAt0 (c : Dev nD) (n : ℕ) : (dats m 0 c).arrAt 0 n = V m c main_arg0 := ((dats m 0 c).arrAt_in 0 rfl n).trans (A_eq m c 0)
theorem arrAt1 (c : Dev nD) (n : ℕ) : (dats m 0 c).arrAt 1 n = V m c main_arg0 := ((dats m 0 c).arrAt_in 1 rfl n).trans (A_eq m c 1)

/-! ## The segments -/

set_option backward.isDefEq.respectTransparency.types false in
/-- THE REGION: entered from the launch contents — the argument split between the two input windows, the output array handed to
    the pipeline, the seven other buffers bypassing —, left with the argument whole again and the output array at the result. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W m c) ∗ R c)
  X c := iprop(emp)
  Y c := iprop(emp)
  Z c := Pipeline.unscopedRest spec0 c (V m c)
  hentry c := by
    rw [show StableHlo.held (c : Thread nD τ) (Pipeline.ucRefs τ sig) (V0 m c) = unscopedBufs c (V m c) from (Pipeline.unscopedBufs_held c _).symm,
      ub_eq, arrays_eq3, unscopedRest0_eq]
    iintro ⟨⟨⟨Ha, Hv0, Hc, H1, Hc0, H2, Hc1, H3, H4⟩, HO⟩, -, -⟩
    ihave Hs := (pointsTo_share (PosShare.mem_left_op_right fullShare)).1 $$ Ha
    icases Hs with ⟨Hl, Hr⟩
    imodintro
    isplitl [Hl Hr Hv0]
    · isplitl [Hl]; · rw [arrAt0]; iexact Hl
      isplitl [Hr]; · rw [arrAt1]; iexact Hr
      iexact Hv0
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitr; · iempintro
    isplitl [Hc]; · iexact Hc
    isplitl [H1]; · iexact H1
    isplitl [Hc0]; · iexact Hc0
    isplitl [H2]; · iexact H2
    isplitl [Hc1]; · iexact Hc1
    isplitl [H3]; · iexact H3
    iexact H4
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m 0 c).Φ (Fin.last cfg0.N) = PhiS m c (Fin.last cfg0.N).val (Nat.le_of_lt_succ (Fin.last cfg0.N).isLt) from rfl,
      PhiS_pos m c _ _ (by rw [Fin.val_last]; have : cfg0.N = 32 := N_eq; omega), scoped_eq]
    iintro ⟨H0, H1⟩
    isplitr; · iempintro
    isplitr; · iempintro
    isplitl [H0]; · iexists _; iexact H0
    iexists _; iexact H1
  hexit c := by
    rw [show StableHlo.held (c : Thread nD τ) (Pipeline.ucRefs τ sig) (W m c) = unscopedBufs c (fun b => W m c (Proc.devRef .tc b)) from (Pipeline.unscopedBufs_held c _).symm,
      ub_eq, arrays_eq3, unscopedRest0_eq, arrAt0, arrAt1, W_out,
      W_other m c main_arg0 (by decide), W_other m c main_cst (by decide), W_other m c main_v1 (by decide), W_other m c main_cst_0 (by decide),
      W_other m c main_v2 (by decide), W_other m c main_cst_1 (by decide), W_other m c main_v3 (by decide), W_other m c main_v4 (by decide)]
    iintro ⟨⟨Hl, Hr, Hv0⟩, HO, -, ⟨Hc, H1, Hc0, H2, Hc1, H3, H4⟩⟩
    ihave Ha := (pointsTo_share (PosShare.mem_left_op_right fullShare)).2 $$ [Hl Hr]
    · isplitl [Hl] <;> iassumption
    imodintro
    isplitr [HO]
    · isplitl [Ha]; · iexact Ha
      isplitl [Hv0]; · iexact Hv0
      isplitl [Hc]; · iexact Hc
      isplitl [H1]; · iexact H1
      isplitl [Hc0]; · iexact Hc0
      isplitl [H2]; · iexact H2
      isplitl [Hc1]; · iexact Hc1
      isplitl [H3]; · iexact H3
      iexact H4
    · unfold Pipeline.Dat.owesAt Pipeline.owesWithin
      icases HO with ⟨%W', -, HO⟩; iexists W'; iexact HO

/-- THE HOST TAIL: the seven operations after the region, over the unscoped buffers. -/
def seg1 : Pipeline.HostSeg (Name := ℕ) (U := UR sig nD τ) (pcfgs (F := F)) defs₀ Variants.none L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (W m) R

abbrev segs : List (Pipeline.Seg (pcfgs (F := F)) adm (dats m) () defs₀ Variants.none L lv) := [.region (reg0 m), .host (seg1 m)]

/-- Every unscoped buffer ends at what the host operations leave, run from the buffers after the region. -/
def QC : PUnit × MemSt nD τ sig (Elt F) → Prop := fun r =>
  ∀ c : Dev nD, ∀ b ∈ (Finset.univ.filter fun b : Ref sig .tc => ¬ b.isScoped),
    r.2.mem ((c : Thread nD τ).loc b) = StableHlo.after hostOps1 (W m c) (Proc.devRef .tc b)

set_option backward.isDefEq.respectTransparency.types false in
/-- At the compiled mesh, for any float values, from any memory with zero counters: every weakly fair execution of @main on the
    TensorCores terminates, nothing faulting, every unscoped buffer ending as `QC` says. -/
theorem run_main : θ_run defs (onTc (τ := τ) (main (F := F))) (s₀ m ρ) (QC m) :=
  Pipeline.θ_run_regions_kit (pcfgs (F := F)) adm (dats m) () cellOf_inj EP defs₀ Variants.none L lv m ρ main (segs m)
    (fun c Q => by rw [main_segs adm (dats m) () Variants.none L lv (seg1 m) (reg0 m) rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (StableHlo.after hostOps1 (W m c)))
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => ∀ b ∈ (Finset.univ.filter fun b : Ref sig .tc => ¬ b.isScoped),
      s.mem ((c : Thread nD τ).loc b) = StableHlo.after hostOps1 (W m c) (Proc.devRef .tc b))
    (hfin := fun c s' => by
      rw [show StableHlo.held (c : Thread nD τ) (Pipeline.ucRefs τ sig) (StableHlo.after hostOps1 (W m c))
        = unscopedBufs c (fun b => StableHlo.after hostOps1 (W m c) (Proc.devRef .tc b)) from (Pipeline.unscopedBufs_held c _).symm]
      unfold unscopedBufs
      iintro ⟨Hu, HSI⟩
      imodintro
      iapply (pointsTo_read_all (Finset.univ.filter fun b : Ref sig .tc => ¬ b.isScoped) (fun b => (c : Thread nD τ).loc b)
        (fun b => StableHlo.after hostOps1 (W m c) (Proc.devRef .tc b)) s')
      isplitl [Hu] <;> iassumption)
    (hQ := fun _ h => h)

end Cert.Kernel.Frame

end
-- ==== Proof.KFrameValue.lean ====
/-
  What the kernel program's run leaves, for any float instance: the argument as launched (the frame), and the result as the
  seven host operations' term of what the region left in the output array.
-/
import proofs.«110182_j41772851921541_2_alg».proof.Proof.Gen.Kernel.Launch
import proofs.«110182_j41772851921541_2_alg».proof.Proof.Gen.Kernel.Skeleton
import proofs.«110182_j41772851921541_2_alg».proof.Proof.Gen.Kernel.Points
import proofs.«110182_j41772851921541_2_alg».proof.Proof.KFrameRun
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations after the region write their own seven result buffers only. -/
theorem not_written (b : Ref sig .tc) (hb : b ≠ main_cst ∧ b ≠ main_v1 ∧ b ≠ main_cst_0 ∧ b ≠ main_v2 ∧ b ≠ main_cst_1 ∧ b ≠ main_v3 ∧ b ≠ main_v4) :
    ∀ op ∈ (hostOps1 (F := F)), Proc.devRef .tc b ∉ op.writes := by
  obtain ⟨h0, h1, h2, h3, h4, h5, h6⟩ := hb
  intro op hop
  simp only [List.mem_cons, List.mem_nil_iff, or_false] at hop
  rcases hop with rfl | rfl | rfl | rfl | rfl | rfl | rfl <;>
    simp only [StableHlo.unary_writes, StableHlo.binary_writes, StableHlo.nullary_writes, Finset.mem_singleton] <;>
    exact StableHlo.devRef_ne_of_ne ‹_›

/-- The argument ends as launched. -/
theorem arg_kept (c : Dev nD) :
    StableHlo.after hostOps1 (W m c) (Proc.devRef .tc main_arg0) = m ((c : Thread nD τ).loc main_arg0) :=
  (StableHlo.after_of_forall_not_mem (b := Proc.devRef .tc main_arg0) hostOps1 (W m c) (not_written main_arg0 (by decide))).trans
    (W_other m c main_arg0 (by decide))

/-- The result: the sum of the output array's eight numbers, less 16384, over the pair count, and its logarithm. -/
theorem result_eq (c : Dev nD) :
    StableHlo.after hostOps1 (W m c) (Proc.devRef .tc main_v4)
      = Host.log (Host.divf (subf (Host.reduceAdd (outArr m c) (constant S_ .f32 0x00000000#32) reducesTo_S8x1x1_S_d0_1_2 h_S_)
          (constant S_ .f32 0x46800000#32)) (constant S_ .f32 0x4BFFE000#32)) := by
  rw [← W_out m c]
  after_results

theorem mem_unscoped (b : Ref sig .tc) (h : b.isScoped = false) : b ∈ (Finset.univ.filter fun b : Ref sig .tc => ¬ b.isScoped) :=
  Finset.mem_filter.mpr ⟨Finset.mem_univ _, by simp [h]⟩

/-- THE RUN, read at the result and the argument. -/
theorem run_value : θ_run defs (onTc (τ := τ) (main (F := F))) ⟨m, fun _ => 0, ρ⟩ (fun r => ∀ c : Dev nD,
      r.2.mem ((c.tc : Thread nD τ).loc main_v4)
        = Host.log (Host.divf (subf (Host.reduceAdd (outArr m c) (constant S_ .f32 0x00000000#32) reducesTo_S8x1x1_S_d0_1_2 h_S_)
            (constant S_ .f32 0x46800000#32)) (constant S_ .f32 0x4BFFE000#32))
      ∧ r.2.mem ((c.tc : Thread nD τ).loc main_arg0) = m ((c.tc : Thread nD τ).loc main_arg0)) :=
  (θ_run defs _ _).mono (fun r h c => ⟨(h c main_v4 (mem_unscoped main_v4 rfl)).trans (result_eq m c),
    (h c main_arg0 (mem_unscoped main_arg0 rfl)).trans (arg_kept m c)⟩) (run_main m ρ)

/-- THE FRAME: every weakly fair execution terminates, nothing faulting, the argument unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c).2) (run_value m ρ)

end Cert.Kernel.Frame

end
-- ==== Proof.FrameData.lean ====
/-
  The proof data of the kernel's one pipelined region, for any float instance.

  The grid has 8 rows of 4 points: row `b` is cloud `b`, point `qi` of the row is the tile of 512 query points
  `qi·512 … qi·512+511`. Window 0 is the tile of queries (fetched at every point), window 1 the whole cloud (fetched at the
  first point of a row and kept), window 2 the cloud's one output number (written back after the last point of the row).
  Two scratch buffers are carried from point to point: the squared norms of the cloud's points (written at the first point
  of a row) and the 512 running row sums (zeroed at the first point of a row, added to at every point). What they hold after
  each point is defined by recursion on the point.
-/
import proofs.«110182_j41772851921541_2_alg».proof.Proof.Gen.KernelIdeal.Launch
import proofs.«110182_j41772851921541_2_alg».proof.Proof.Gen.KernelIdeal.Skeleton
import proofs.«110182_j41772851921541_2_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The region's entry contents and the windows' blocks -/

/-- The TensorCore buffers of core `c` when the region is entered: the launch contents (no host operation runs before it). -/
abbrev V0 (c : Dev nD) : Valuation τ sig (Elt F) := fun b => m (c, b)
abbrev V (c : Dev nD) (b : Ref sig .tc) : Buf (Elt F) ((c : Thread nD τ).loc b) := V0 m c (Proc.devRef .tc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The two scratch buffers as memrefs. -/
abbrev scM0 : Memref sig .tc .vmem S1x2048 .f32 := Memref.whole cc0_scratch0
abbrev scM1 : Memref sig .tc .vmem S512x1 .f32 := Memref.whole cc0_scratch1

/-! ## What the scratches hold after each point -/

/-- After point `n`: the squared norms of the cloud's points, and the running row sums. At the first point of a row both are
    made afresh from the blocks; at a later point the norms stay and the tile's row sums are added to the running sums. -/
def stAt (c : Dev nD) : (n : ℕ) → n < cfg0.N → Vec F S1x2048 .f32 × Vec F S512x1 .f32
  | 0, hn => (k0_pay2 (iblk m c 1 ⟨0, hn⟩), k0_pay5 (iblk m c 0 ⟨0, hn⟩) (iblk m c 1 ⟨0, hn⟩) (k0_pay2 (iblk m c 1 ⟨0, hn⟩)) (k0_pay3 (F := F)))
  | n + 1, hn =>
    if (n + 1) % 4 = 0 then
      (k0_pay2 (iblk m c 1 ⟨n + 1, hn⟩), k0_pay5 (iblk m c 0 ⟨n + 1, hn⟩) (iblk m c 1 ⟨n + 1, hn⟩) (k0_pay2 (iblk m c 1 ⟨n + 1, hn⟩)) (k0_pay3 (F := F)))
    else
      ((stAt c n (Nat.lt_of_succ_lt hn)).1,
        k0_pay5 (iblk m c 0 ⟨n + 1, hn⟩) (iblk m c 1 ⟨n + 1, hn⟩) (stAt c n (Nat.lt_of_succ_lt hn)).1 (stAt c n (Nat.lt_of_succ_lt hn)).2)

/-- At the first point of a row. -/
theorem stAt_first (c : Dev nD) (t : Fin cfg0.N) (h0 : t.val % 4 = 0) :
    stAt m c t.val t.isLt = (k0_pay2 (iblk m c 1 t), k0_pay5 (iblk m c 0 t) (iblk m c 1 t) (k0_pay2 (iblk m c 1 t)) (k0_pay3 (F := F))) := by
  obtain ⟨n, hn⟩ := t
  cases n with
  | zero => rfl
  | succ n => exact if_pos h0

/-- At a later point of a row. -/
theorem stAt_later (c : Dev nD) (t : Fin cfg0.N) (h0 : ¬ t.val % 4 = 0) :
    stAt m c t.val t.isLt = ((stAt m c (t.val - 1) (Nat.lt_of_le_of_lt (Nat.sub_le _ _) t.isLt)).1,
      k0_pay5 (iblk m c 0 t) (iblk m c 1 t) (stAt m c (t.val - 1) (Nat.lt_of_le_of_lt (Nat.sub_le _ _) t.isLt)).1
        (stAt m c (t.val - 1) (Nat.lt_of_le_of_lt (Nat.sub_le _ _) t.isLt)).2) := by
  obtain ⟨n, hn⟩ := t
  cases n with
  | zero => exact absurd (Nat.zero_mod _) h0
  | succ n => exact if_neg h0

/-! ## The invariant between points -/

/-- Before the first point the two scratches hold anything; after point `n` what `stAt` says. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0 fullShare (stAt m c n hn).1 ∗ owns (c : Thread nD τ) scM1 fullShare (stAt m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0 fullShare (stAt m c n hn).1 ∗ owns (c : Thread nD τ) scM1 fullShare (stAt m c n hn).2) := rfl

theorem PhiS_pos (c : Dev nD) (n : ℕ) (h : n ≤ cfg0.N) (hz : n ≠ 0) :
    PhiS m c n h = iprop(owns (c : Thread nD τ) scM0 fullShare (stAt m c (n - 1) (by omega)).1
      ∗ owns (c : Thread nD τ) scM1 fullShare (stAt m c (n - 1) (by omega)).2) := by
  cases n with
  | zero => exact absurd rfl hz
  | succ n => rfl

/-- The scoped buffers no window stages are the two scratches, each at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

/-! ## The proof data -/

/-- The arrays as the region finds them; after the body each input's buffer at its block, the output's at zero after the first
    point of a row and at the sum of the running row sums after the last; the two input windows share one array, each at half
    of it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => if t.val % 4 = 3 then k0_pay1 (stAt m c t.val t.isLt).2 else k0_pay4 (F := F)
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = if t.val % 4 = 3 then k0_pay1 (stAt m c t.val t.isLt).2 else k0_pay4 (F := F) := by dsimp only [dats]

/-- Each input's current staging buffer holds its block at every point, fetched there or not (unfetched, the block index has not
    moved). -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-! ## The branch conditions and the idle points, decided over the grid -/

theorem N_eq : cfg0.N = 32 := N_0

theorem hcond1 : ∀ t : Fin cfg0.N, k0_cond1 (grid0.coords t) = 1#1 ↔ t.val % 4 = 0 :=
  (by decide +kernel : ∀ t : Fin grid0.N, k0_cond1 (grid0.coords t) = 1#1 ↔ t.val % 4 = 0)
theorem hcond2 : ∀ t : Fin cfg0.N, k0_cond2 (grid0.coords t) = 1#1 ↔ t.val % 4 = 3 :=
  (by decide +kernel : ∀ t : Fin grid0.N, k0_cond2 (grid0.coords t) = 1#1 ↔ t.val % 4 = 3)

theorem live0 : ∀ t : Fin cfg0.N, cfg0.idle 0 (grid0.coords t) = false := by decide +kernel
theorem live1 : ∀ t : Fin cfg0.N, cfg0.idle 1 (grid0.coords t) = false := by decide +kernel
theorem live2_first : ∀ t : Fin cfg0.N, t.val % 4 = 0 → cfg0.idle 2 (grid0.coords t) = false := by decide +kernel
theorem live2_last : ∀ t : Fin cfg0.N, t.val % 4 = 3 → cfg0.idle 2 (grid0.coords t) = false := by decide +kernel
theorem idle2_mid : ∀ t : Fin cfg0.N, ¬ t.val % 4 = 0 → ¬ t.val % 4 = 3 → cfg0.idle 2 (grid0.coords t) = true := by decide +kernel
theorem noflush2_mid : ∀ t : Fin cfg0.N, ¬ t.val % 4 = 0 → ¬ t.val % 4 = 3 → (cfg0.win 2).flush t = false := by decide +kernel

end Cert.KernelIdeal.Frame

end
-- ==== Proof.BodyFirst.lean ====
/-
  The kernel body at the first point of a cloud's row of the grid.
-/
import proofs.«110182_j41772851921541_2_alg».proof.Proof.Gen.KernelIdeal.Launch
import proofs.«110182_j41772851921541_2_alg».proof.Proof.Gen.KernelIdeal.Skeleton
import proofs.«110182_j41772851921541_2_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

private theorem hz2 : (![0, 0] : Fin 2 → Nat) = fun _ => 0 := by funext a; fin_cases a <;> rfl
private theorem hz3 : (![0, 0, 0] : Fin 3 → Nat) = fun _ => 0 := by funext a; fin_cases a <;> rfl

set_option maxHeartbeats 2000000 in
/-- The body writes the squared norms of the cloud's points into the first scratch, zeroes the accumulator scratch and the output
    block, then adds this tile's row sums to the (zeroed) accumulator. Nothing it loaded from the two scratches or the output block
    before overwriting them is used. -/
theorem body_A (c : Dev nD) (i : grid0.Coords)
    (arg2 : Memref sig .tc .vmem S1x512x256 .f32) (harg2 : arg2.IsWhole) (arg3 : Memref sig .tc .vmem S1x2048x256 .f32) (harg3 : arg3.IsWhole)
    (arg4 : Memref sig .tc .vmem S1x1x1 .f32) (harg4 : arg4.IsWhole) (arg5 : Memref sig .tc .vmem S1x2048 .f32) (harg5 : arg5.IsWhole)
    (arg6 : Memref sig .tc .vmem S512x1 .f32) (harg6 : arg6.IsWhole)
    (h1 : k0_cond1 i = 1#1) (h2 : ¬ k0_cond2 i = 1#1)
    (x2 : Vec F S1x512x256 .f32) (x3 : Vec F S1x2048x256 .f32) (x4 : Vec F S1x1x1 .f32) (x5 : Vec F S1x2048 .f32) (x6 : Vec F S512x1 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (iprop(owns (c : Thread nD τ) arg2 fullShare x2 ∗ owns (c : Thread nD τ) arg3 fullShare x3 ∗ owns (c : Thread nD τ) arg4 fullShare (k0_pay4 (F := F))
            ∗ owns (c : Thread nD τ) arg5 fullShare (k0_pay2 x3) ∗ owns (c : Thread nD τ) arg6 fullShare (k0_pay5 x2 x3 (k0_pay2 x3) (k0_pay3 (F := F)))) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; swap; (· iexact H4); ipureintro
    refine (View.read_writes_eq_canon _ _ _ ?_).trans ?_
    · intro y; refine ⟨_, List.mem_cons_self .., ?_⟩; exact View.mem_set_unit_zero hz3 Facts₀.inb_S1x1x1_S1x1x1_0_0_0 y
    · rw [View.canon_cons_unit_zero hz3]
  isplitl [H5]
  · iexists _; isplitr; swap; (· iexact H5); ipureintro
    sl_unfold_words
    refine (View.read_writes_eq_canon _ _ _ ?_).trans ?_
    · intro y; refine ⟨_, List.mem_cons_self .., ?_⟩; exact View.mem_set_unit_zero hz2 Facts₀.inb_S1x2048_S1x2048_0_0 y
    · rw [View.canon_cons_unit_zero hz2]
      simp only [View.readAt_eq_ld, harg2.read_unread, harg3.read_unread, harg4.read_unread, harg5.read_unread, harg6.read_unread,
        View.ld_unit_zero (S := S1x512x256) hz3, View.ld_unit_zero (S := S1x2048x256) hz3, View.ld_unit_zero (S := S1x2048) hz2, View.ld_unit_zero (S := S512x1) hz2,
        View.ld_unit_zero (S := S1x1x1) hz3, View.readCov_unit_zero (S := S1x2048) _ hz2, View.readCov_unit_zero (S := S512x1) _ hz2, View.readCov_unit_zero (S := S1x1x1) _ hz3]
  iexists _; isplitr; swap; (· iexact H6); ipureintro
  sl_unfold_words
  refine (View.read_writes_eq_canon _ _ _ ?_).trans ?_
  · intro y; refine ⟨_, List.mem_cons_self .., ?_⟩; exact View.mem_set_unit_zero hz2 Facts₀.inb_S512x1_S512x1_0_0 y
  · rw [View.canon_cons_unit_zero hz2]
    simp only [View.readAt_eq_ld, harg2.read_unread, harg3.read_unread, harg4.read_unread, harg5.read_unread, harg6.read_unread,
        View.ld_unit_zero (S := S1x512x256) hz3, View.ld_unit_zero (S := S1x2048x256) hz3, View.ld_unit_zero (S := S1x2048) hz2, View.ld_unit_zero (S := S512x1) hz2,
        View.ld_unit_zero (S := S1x1x1) hz3, View.readCov_unit_zero (S := S1x2048) _ hz2, View.readCov_unit_zero (S := S512x1) _ hz2, View.readCov_unit_zero (S := S1x1x1) _ hz3]

end Cert.KernelIdeal.Body
end
-- ==== Proof.BodyMid.lean ====
/-
  The kernel body at a point in the middle of a cloud's row of the grid (neither its first point nor its last).
-/
import proofs.«110182_j41772851921541_2_alg».proof.Proof.Gen.KernelIdeal.Launch
import proofs.«110182_j41772851921541_2_alg».proof.Proof.Gen.KernelIdeal.Skeleton
import proofs.«110182_j41772851921541_2_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

private theorem hz2 : (![0, 0] : Fin 2 → Nat) = fun _ => 0 := by funext a; fin_cases a <;> rfl
private theorem hz3 : (![0, 0, 0] : Fin 3 → Nat) = fun _ => 0 := by funext a; fin_cases a <;> rfl

set_option maxHeartbeats 1000000 in
/-- The body adds this tile's row sums to the accumulator scratch and touches nothing else. -/
theorem body_B (c : Dev nD) (i : grid0.Coords)
    (arg2 : Memref sig .tc .vmem S1x512x256 .f32) (harg2 : arg2.IsWhole) (arg3 : Memref sig .tc .vmem S1x2048x256 .f32) (harg3 : arg3.IsWhole)
    (arg4 : Memref sig .tc .vmem S1x1x1 .f32) (harg4 : arg4.IsWhole) (arg5 : Memref sig .tc .vmem S1x2048 .f32) (harg5 : arg5.IsWhole)
    (arg6 : Memref sig .tc .vmem S512x1 .f32) (harg6 : arg6.IsWhole)
    (h1 : ¬ k0_cond1 i = 1#1) (h2 : ¬ k0_cond2 i = 1#1)
    (x2 : Vec F S1x512x256 .f32) (x3 : Vec F S1x2048x256 .f32) (x4 : Vec F S1x1x1 .f32) (x5 : Vec F S1x2048 .f32) (x6 : Vec F S512x1 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare (k0_pay5 x2 x3 x5 x6)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr; swap; (· iexact H6); ipureintro
  refine (View.read_writes_eq_canon _ _ _ ?_).trans ?_
  · intro y; refine ⟨_, List.mem_cons_self .., ?_⟩; exact View.mem_set_unit_zero hz2 Facts₀.inb_S512x1_S512x1_0_0 y
  · rw [View.canon_cons_unit_zero hz2]
    simp only [View.readAt_eq_ld, harg2.read_unread, harg3.read_unread, harg4.read_unread, harg5.read_unread, harg6.read_unread,
        View.ld_unit_zero (S := S1x512x256) hz3, View.ld_unit_zero (S := S1x2048x256) hz3, View.ld_unit_zero (S := S1x2048) hz2, View.ld_unit_zero (S := S512x1) hz2,
        View.ld_unit_zero (S := S1x1x1) hz3, View.readCov_unit_zero (S := S1x2048) _ hz2, View.readCov_unit_zero (S := S512x1) _ hz2, View.readCov_unit_zero (S := S1x1x1) _ hz3]

end Cert.KernelIdeal.Body
end
-- ==== Proof.BodyLast.lean ====
/-
  The kernel body at the last point of a cloud's row of the grid.
-/
import proofs.«110182_j41772851921541_2_alg».proof.Proof.Gen.KernelIdeal.Launch
import proofs.«110182_j41772851921541_2_alg».proof.Proof.Gen.KernelIdeal.Skeleton
import proofs.«110182_j41772851921541_2_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

private theorem hz2 : (![0, 0] : Fin 2 → Nat) = fun _ => 0 := by funext a; fin_cases a <;> rfl
private theorem hz3 : (![0, 0, 0] : Fin 3 → Nat) = fun _ => 0 := by funext a; fin_cases a <;> rfl

set_option maxHeartbeats 2000000 in
/-- The body adds this tile's row sums to the accumulator scratch, then stores the sum of the accumulator's 512 entries into the
    output block. -/
theorem body_C (c : Dev nD) (i : grid0.Coords)
    (arg2 : Memref sig .tc .vmem S1x512x256 .f32) (harg2 : arg2.IsWhole) (arg3 : Memref sig .tc .vmem S1x2048x256 .f32) (harg3 : arg3.IsWhole)
    (arg4 : Memref sig .tc .vmem S1x1x1 .f32) (harg4 : arg4.IsWhole) (arg5 : Memref sig .tc .vmem S1x2048 .f32) (harg5 : arg5.IsWhole)
    (arg6 : Memref sig .tc .vmem S512x1 .f32) (harg6 : arg6.IsWhole)
    (h1 : ¬ k0_cond1 i = 1#1) (h2 : k0_cond2 i = 1#1)
    (x2 : Vec F S1x512x256 .f32) (x3 : Vec F S1x2048x256 .f32) (x4 : Vec F S1x1x1 .f32) (x5 : Vec F S1x2048 .f32) (x6 : Vec F S512x1 .f32)
    (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (iprop(owns (c : Thread nD τ) arg2 fullShare x2 ∗ owns (c : Thread nD τ) arg3 fullShare x3 ∗ owns (c : Thread nD τ) arg4 fullShare (k0_pay1 (k0_pay5 x2 x3 x5 x6))
            ∗ owns (c : Thread nD τ) arg5 fullShare x5 ∗ owns (c : Thread nD τ) arg6 fullShare (k0_pay5 x2 x3 x5 x6)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; swap; (· iexact H4); ipureintro
    sl_unfold_words
    refine (View.read_writes_eq_canon _ _ _ ?_).trans ?_
    · intro y; refine ⟨_, List.mem_cons_self .., ?_⟩; exact View.mem_set_unit_zero hz3 Facts₀.inb_S1x1x1_S1x1x1_0_0_0 y
    · rw [View.canon_cons_unit_zero hz3]
      simp only [View.readAt_eq_ld, harg2.read_unread, harg3.read_unread, harg4.read_unread, harg5.read_unread, harg6.read_unread,
        View.ld_unit_zero (S := S1x512x256) hz3, View.ld_unit_zero (S := S1x2048x256) hz3, View.ld_unit_zero (S := S1x2048) hz2, View.ld_unit_zero (S := S512x1) hz2,
        View.ld_unit_zero (S := S1x1x1) hz3, View.readCov_unit_zero (S := S1x2048) _ hz2, View.readCov_unit_zero (S := S512x1) _ hz2, View.readCov_unit_zero (S := S1x1x1) _ hz3]
  isplitl [H5]
  · iexists _; isplitr; · ipureintro; exact harg5.read_unread _
    iexact H5
  iexists _; isplitr; swap; (· iexact H6); ipureintro
  sl_unfold_words
  refine (View.read_writes_eq_canon _ _ _ ?_).trans ?_
  · intro y; refine ⟨_, List.mem_cons_self .., ?_⟩; exact View.mem_set_unit_zero hz2 Facts₀.inb_S512x1_S512x1_0_0 y
  · rw [View.canon_cons_unit_zero hz2]
    simp only [View.readAt_eq_ld, harg2.read_unread, harg3.read_unread, harg4.read_unread, harg5.read_unread, harg6.read_unread,
        View.ld_unit_zero (S := S1x512x256) hz3, View.ld_unit_zero (S := S1x2048x256) hz3, View.ld_unit_zero (S := S1x2048) hz2, View.ld_unit_zero (S := S512x1) hz2,
        View.ld_unit_zero (S := S1x1x1) hz3, View.readCov_unit_zero (S := S1x2048) _ hz2, View.readCov_unit_zero (S := S512x1) _ hz2, View.readCov_unit_zero (S := S1x1x1) _ hz3]

end Cert.KernelIdeal.Body
end
-- ==== Proof.SoundBody.lean ====
/-
  The body obligation of the kernel's region: at every grid point the body, run on the windows' current staging buffers at what
  they hold and the two scratches at what the point before left, leaves each at what the proof data says.
-/
import proofs.«110182_j41772851921541_2_alg».proof.Proof.Gen.KernelIdeal.Launch
import proofs.«110182_j41772851921541_2_alg».proof.Proof.Gen.KernelIdeal.Skeleton
import proofs.«110182_j41772851921541_2_alg».proof.Proof.Gen.KernelIdeal.Points
import proofs.«110182_j41772851921541_2_alg».proof.Proof.FrameData
import proofs.«110182_j41772851921541_2_alg».proof.Proof.BodyFirst
import proofs.«110182_j41772851921541_2_alg».proof.Proof.BodyMid
import proofs.«110182_j41772851921541_2_alg».proof.Proof.BodyLast
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.Body

variable (m : (ℓ : Loc nD τ sig) → Buf (Elt F) ℓ)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (st0_0 t) fullShare ((dats m 0 c).after 0 t) from by
    unfold Dat.leavesExact; rw [live0 t], after0]
  rw [show (dats m 0 c).leavesExact 1 t = owns (c : Thread nD τ) (st0_1 t) fullShare ((dats m 0 c).after 1 t) from by
    unfold Dat.leavesExact; rw [live1 t], after1]
  have hN : t.val < 32 := lt_of_lt_of_eq t.isLt N_eq
  by_cases h0 : t.val % 4 = 0
  · have h3 : ¬ t.val % 4 = 3 := by omega
    rw [show (dats m 0 c).leavesExact 2 t = owns (c : Thread nD τ) (st0_2 t) fullShare ((dats m 0 c).after 2 t) from by
      unfold Dat.leavesExact; rw [live2_first t h0], after2, if_neg h3]
    rw [stAt_first m c t h0]
    by_cases hz : t.val = 0
    · rw [PhiS_castSucc m c t, PhiS_zero m c _ _ hz, scoped_eq]
      iintro ⟨⟨⟨%e0, HS0⟩, ⟨%e1, HS1⟩⟩, Ho, ⟨%d0, H0⟩, ⟨%d1, H1⟩, ⟨%d2, H2⟩⟩
      iapply (body_A c (grid0.coords t) _ _ _ _ _ _ _ _ _ _ ((hcond1 t).mpr h0) (fun h => h3 ((hcond2 t).mp h)) (iblk m c 0 t) (iblk m c 1 t) _ e0 e1 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1]
      · isplitl [HS0] <;> iassumption
      isplitl [Ho]; · iexact Ho
      isplitl [H0]; · iexact H0
      isplitl [H1] <;> iassumption
    · rw [PhiS_castSucc m c t, PhiS_pos m c _ _ hz]
      iintro ⟨⟨HS0, HS1⟩, Ho, ⟨%d0, H0⟩, ⟨%d1, H1⟩, ⟨%d2, H2⟩⟩
      iapply (body_A c (grid0.coords t) _ _ _ _ _ _ _ _ _ _ ((hcond1 t).mpr h0) (fun h => h3 ((hcond2 t).mp h)) (iblk m c 0 t) (iblk m c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1]
      · isplitl [HS0] <;> iassumption
      isplitl [Ho]; · iexact Ho
      isplitl [H0]; · iexact H0
      isplitl [H1] <;> iassumption
  · have hz : t.val ≠ 0 := fun e => h0 (by rw [e])
    rw [stAt_later m c t h0, PhiS_castSucc m c t, PhiS_pos m c _ _ hz]
    by_cases h3 : t.val % 4 = 3
    · rw [show (dats m 0 c).leavesExact 2 t = owns (c : Thread nD τ) (st0_2 t) fullShare ((dats m 0 c).after 2 t) from by
        unfold Dat.leavesExact; rw [live2_last t h3], after2, if_pos h3, stAt_later m c t h0]
      iintro ⟨⟨HS0, HS1⟩, Ho, ⟨%d0, H0⟩, ⟨%d1, H1⟩, ⟨%d2, H2⟩⟩
      iapply (body_C c (grid0.coords t) _ _ _ _ _ _ _ _ _ _ (fun h => h0 ((hcond1 t).mp h)) ((hcond2 t).mpr h3) (iblk m c 0 t) (iblk m c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1]
      · isplitl [HS0] <;> iassumption
      isplitl [Ho]; · iexact Ho
      isplitl [H0]; · iexact H0
      isplitl [H1] <;> iassumption
    · rw [Dat.leavesExact_idle (dats m 0 c) 2 t (idle2_mid t h0 h3) (noflush2_mid t h0 h3)]
      iintro ⟨⟨HS0, HS1⟩, Ho, ⟨%d0, H0⟩, ⟨%d1, H1⟩, ⟨%d2, H2⟩⟩
      iapply (body_B c (grid0.coords t) _ _ _ _ _ _ _ _ _ _ (fun h => h0 ((hcond1 t).mp h)) (fun h => h3 ((hcond2 t).mp h)) (iblk m c 0 t) (iblk m c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1]
      · isplitl [HS0] <;> iassumption
      isplitl [Ho]; · iexact Ho
      isplitl [H0]; · iexact H0
      isplitl [H1]; · iexact H1
      iexists d2; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frame

end
-- ==== Proof.FrameRun.lean ====
/-
  The run of the kernel program, for any float instance: the one pipelined region, then seven host operations.

  The region's two input windows read ONE array (the argument): the array's points-to is split in two halves at entry, one per
  window, and joined again at exit, where the output window's array holds what the write-backs left. The host operations after
  the region then run over all the unscoped buffers, the output array at the region's result.
-/
import proofs.«110182_j41772851921541_2_alg».proof.Proof.Gen.KernelIdeal.Launch
import proofs.«110182_j41772851921541_2_alg».proof.Proof.Gen.KernelIdeal.Skeleton
import proofs.«110182_j41772851921541_2_alg».proof.Proof.Gen.KernelIdeal.Points
import proofs.«110182_j41772851921541_2_alg».proof.Proof.SoundBody
import Idealize.ShloMosaic.Lib.Pipeline.Frame
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pipeline library's algebra is the whole user component. -/
abbrev EP : Emb (UR sig nD τ) (MT nD τ sig Unit (Elt F) ℕ (UR sig nD τ) ℕ) := emb₁

abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- The core owes nothing, before, between and after. -/
abbrev R (c : Dev nD) : sProp 𝕄 := iprop(∃ W, owes (c : Thread nD τ) (0 : CellTallies nD τ sig Unit) W)

/-! ## The unscoped buffers, one by one -/

/-- The nine unscoped buffers of the core at a valuation. -/
theorem ub_eq (c : Dev nD) (W : (b : Ref sig .tc) → Buf (Elt F) ((c : Thread nD τ).loc b)) :
    (unscopedBufs c W : sProp 𝕄)
      = iprop((((c : Thread nD τ).loc main_arg0) ↦{fullShare} W main_arg0) ∗ (((c : Thread nD τ).loc main_v0) ↦{fullShare} W main_v0)
        ∗ (((c : Thread nD τ).loc main_cst) ↦{fullShare} W main_cst) ∗ (((c : Thread nD τ).loc main_v1) ↦{fullShare} W main_v1)
        ∗ (((c : Thread nD τ).loc main_cst_0) ↦{fullShare} W main_cst_0) ∗ (((c : Thread nD τ).loc main_v2) ↦{fullShare} W main_v2)
        ∗ (((c : Thread nD τ).loc main_cst_1) ↦{fullShare} W main_cst_1) ∗ (((c : Thread nD τ).loc main_v3) ↦{fullShare} W main_v3)
        ∗ (((c : Thread nD τ).loc main_v4) ↦{fullShare} W main_v4)) := by
  unfold unscopedBufs
  rw [bigSep_eq_bigSepL_of_eq [main_arg0, main_v0, main_cst, main_v1, main_cst_0, main_v2, main_cst_1, main_v3, main_v4] (by decide) (by decide)]
  rfl

/-- The pipeline's arrays: the argument's two halves, one per input window, and the output array whole. -/
theorem arrays_eq3 (c : Dev nD) (A : (w : Fin cfg0.W) → Buf (Elt F) ((cfg0.win w).arr.view.loc (c : Thread nD τ))) :
    ((dats m 0 c).arrays A : sProp 𝕄)
      = iprop((((c : Thread nD τ).loc main_arg0) ↦{fullShare.left} A 0) ∗ (((c : Thread nD τ).loc main_arg0) ↦{fullShare.right} A 1)
        ∗ (((c : Thread nD τ).loc main_v0) ↦{fullShare} A 2)) := by
  unfold Dat.arrays
  rw [bigSep_W0, (arr_whole0 0).set_eq_univ, (arr_whole0 2).set_eq_univ]
  rfl

/-! ## After the region -/

/-- What the region leaves in the output array. -/
abbrev outArr (c : Dev nD) : Buf (Elt F) ((c : Thread nD τ).loc main_v0) := (dats m 0 c).arrAt 2 cfg0.N

/-- The buffers after the region: as launched, the output array at the region's result. -/
def W (c : Dev nD) : Valuation τ sig (Elt F) := Function.update (V0 m c) (Proc.devRef .tc main_v0) (outArr m c)

theorem W_out (c : Dev nD) : W m c (Proc.devRef .tc main_v0) = outArr m c := by
  unfold W; exact Function.update_self _ _ _

theorem W_other (c : Dev nD) (b : Ref sig .tc) (hb : b ≠ main_v0) : W m c (Proc.devRef .tc b) = V m c b := by
  unfold W; exact Function.update_of_ne (StableHlo.devRef_ne_of_ne hb) _ _

/-- An input window's array is never written. -/
theorem arrAt0 (c : Dev nD) (n : ℕ) : (dats m 0 c).arrAt 0 n = V m c main_arg0 := ((dats m 0 c).arrAt_in 0 rfl n).trans (A_eq m c 0)
theorem arrAt1 (c : Dev nD) (n : ℕ) : (dats m 0 c).arrAt 1 n = V m c main_arg0 := ((dats m 0 c).arrAt_in 1 rfl n).trans (A_eq m c 1)

/-! ## The segments -/

set_option backward.isDefEq.respectTransparency.types false in
/-- THE REGION: entered from the launch contents — the argument split between the two input windows, the output array handed to
    the pipeline, the seven other buffers bypassing —, left with the argument whole again and the output array at the result. -/
def reg0 : Pipeline.RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W m c) ∗ R c)
  X c := iprop(emp)
  Y c := iprop(emp)
  Z c := Pipeline.unscopedRest spec0 c (V m c)
  hentry c := by
    rw [show StableHlo.held (c : Thread nD τ) (Pipeline.ucRefs τ sig) (V0 m c) = unscopedBufs c (V m c) from (Pipeline.unscopedBufs_held c _).symm,
      ub_eq, arrays_eq3, unscopedRest0_eq]
    iintro ⟨⟨⟨Ha, Hv0, Hc, H1, Hc0, H2, Hc1, H3, H4⟩, HO⟩, -, -⟩
    ihave Hs := (pointsTo_share (PosShare.mem_left_op_right fullShare)).1 $$ Ha
    icases Hs with ⟨Hl, Hr⟩
    imodintro
    isplitl [Hl Hr Hv0]
    · isplitl [Hl]; · rw [arrAt0]; iexact Hl
      isplitl [Hr]; · rw [arrAt1]; iexact Hr
      iexact Hv0
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitr; · iempintro
    isplitl [Hc]; · iexact Hc
    isplitl [H1]; · iexact H1
    isplitl [Hc0]; · iexact Hc0
    isplitl [H2]; · iexact H2
    isplitl [Hc1]; · iexact Hc1
    isplitl [H3]; · iexact H3
    iexact H4
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m 0 c).Φ (Fin.last cfg0.N) = PhiS m c (Fin.last cfg0.N).val (Nat.le_of_lt_succ (Fin.last cfg0.N).isLt) from rfl,
      PhiS_pos m c _ _ (by rw [Fin.val_last]; have : cfg0.N = 32 := N_eq; omega), scoped_eq]
    iintro ⟨H0, H1⟩
    isplitr; · iempintro
    isplitr; · iempintro
    isplitl [H0]; · iexists _; iexact H0
    iexists _; iexact H1
  hexit c := by
    rw [show StableHlo.held (c : Thread nD τ) (Pipeline.ucRefs τ sig) (W m c) = unscopedBufs c (fun b => W m c (Proc.devRef .tc b)) from (Pipeline.unscopedBufs_held c _).symm,
      ub_eq, arrays_eq3, unscopedRest0_eq, arrAt0, arrAt1, W_out,
      W_other m c main_arg0 (by decide), W_other m c main_cst (by decide), W_other m c main_v1 (by decide), W_other m c main_cst_0 (by decide),
      W_other m c main_v2 (by decide), W_other m c main_cst_1 (by decide), W_other m c main_v3 (by decide), W_other m c main_v4 (by decide)]
    iintro ⟨⟨Hl, Hr, Hv0⟩, HO, -, ⟨Hc, H1, Hc0, H2, Hc1, H3, H4⟩⟩
    ihave Ha := (pointsTo_share (PosShare.mem_left_op_right fullShare)).2 $$ [Hl Hr]
    · isplitl [Hl] <;> iassumption
    imodintro
    isplitr [HO]
    · isplitl [Ha]; · iexact Ha
      isplitl [Hv0]; · iexact Hv0
      isplitl [Hc]; · iexact Hc
      isplitl [H1]; · iexact H1
      isplitl [Hc0]; · iexact Hc0
      isplitl [H2]; · iexact H2
      isplitl [Hc1]; · iexact Hc1
      isplitl [H3]; · iexact H3
      iexact H4
    · unfold Pipeline.Dat.owesAt Pipeline.owesWithin
      icases HO with ⟨%W', -, HO⟩; iexists W'; iexact HO

/-- THE HOST TAIL: the seven operations after the region, over the unscoped buffers. -/
def seg1 : Pipeline.HostSeg (Name := ℕ) (U := UR sig nD τ) (pcfgs (F := F)) defs₀ Variants.none L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (W m) R

abbrev segs : List (Pipeline.Seg (pcfgs (F := F)) adm (dats m) () defs₀ Variants.none L lv) := [.region (reg0 m), .host (seg1 m)]

/-- Every unscoped buffer ends at what the host operations leave, run from the buffers after the region. -/
def QC : PUnit × MemSt nD τ sig (Elt F) → Prop := fun r =>
  ∀ c : Dev nD, ∀ b ∈ (Finset.univ.filter fun b : Ref sig .tc => ¬ b.isScoped),
    r.2.mem ((c : Thread nD τ).loc b) = StableHlo.after hostOps1 (W m c) (Proc.devRef .tc b)

set_option backward.isDefEq.respectTransparency.types false in
/-- At the compiled mesh, for any float values, from any memory with zero counters: every weakly fair execution of @main on the
    TensorCores terminates, nothing faulting, every unscoped buffer ending as `QC` says. -/
theorem run_main : θ_run defs (onTc (τ := τ) (main (F := F))) (s₀ m ρ) (QC m) :=
  Pipeline.θ_run_regions_kit (pcfgs (F := F)) adm (dats m) () cellOf_inj EP defs₀ Variants.none L lv m ρ main (segs m)
    (fun c Q => by rw [main_segs adm (dats m) () Variants.none L lv (seg1 m) (reg0 m) rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (StableHlo.after hostOps1 (W m c)))
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => ∀ b ∈ (Finset.univ.filter fun b : Ref sig .tc => ¬ b.isScoped),
      s.mem ((c : Thread nD τ).loc b) = StableHlo.after hostOps1 (W m c) (Proc.devRef .tc b))
    (hfin := fun c s' => by
      rw [show StableHlo.held (c : Thread nD τ) (Pipeline.ucRefs τ sig) (StableHlo.after hostOps1 (W m c))
        = unscopedBufs c (fun b => StableHlo.after hostOps1 (W m c) (Proc.devRef .tc b)) from (Pipeline.unscopedBufs_held c _).symm]
      unfold unscopedBufs
      iintro ⟨Hu, HSI⟩
      imodintro
      iapply (pointsTo_read_all (Finset.univ.filter fun b : Ref sig .tc => ¬ b.isScoped) (fun b => (c : Thread nD τ).loc b)
        (fun b => StableHlo.after hostOps1 (W m c) (Proc.devRef .tc b)) s')
      isplitl [Hu] <;> iassumption)
    (hQ := fun _ h => h)

end Cert.KernelIdeal.Frame

end
-- ==== Proof.FrameValue.lean ====
/-
  What the kernel program's run leaves, for any float instance: the argument as launched (the frame), and the result as the
  seven host operations' term of what the region left in the output array.
-/
import proofs.«110182_j41772851921541_2_alg».proof.Proof.Gen.KernelIdeal.Launch
import proofs.«110182_j41772851921541_2_alg».proof.Proof.Gen.KernelIdeal.Skeleton
import proofs.«110182_j41772851921541_2_alg».proof.Proof.Gen.KernelIdeal.Points
import proofs.«110182_j41772851921541_2_alg».proof.Proof.FrameRun
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The host operations after the region write their own seven result buffers only. -/
theorem not_written (b : Ref sig .tc) (hb : b ≠ main_cst ∧ b ≠ main_v1 ∧ b ≠ main_cst_0 ∧ b ≠ main_v2 ∧ b ≠ main_cst_1 ∧ b ≠ main_v3 ∧ b ≠ main_v4) :
    ∀ op ∈ (hostOps1 (F := F)), Proc.devRef .tc b ∉ op.writes := by
  obtain ⟨h0, h1, h2, h3, h4, h5, h6⟩ := hb
  intro op hop
  simp only [List.mem_cons, List.mem_nil_iff, or_false] at hop
  rcases hop with rfl | rfl | rfl | rfl | rfl | rfl | rfl <;>
    simp only [StableHlo.unary_writes, StableHlo.binary_writes, StableHlo.nullary_writes, Finset.mem_singleton] <;>
    exact StableHlo.devRef_ne_of_ne ‹_›

/-- The argument ends as launched. -/
theorem arg_kept (c : Dev nD) :
    StableHlo.after hostOps1 (W m c) (Proc.devRef .tc main_arg0) = m ((c : Thread nD τ).loc main_arg0) :=
  (StableHlo.after_of_forall_not_mem (b := Proc.devRef .tc main_arg0) hostOps1 (W m c) (not_written main_arg0 (by decide))).trans
    (W_other m c main_arg0 (by decide))

/-- The result: the sum of the output array's eight numbers, less 16384, over the pair count, and its logarithm. -/
theorem result_eq (c : Dev nD) :
    StableHlo.after hostOps1 (W m c) (Proc.devRef .tc main_v4)
      = Host.log (Host.divf (subf (Host.reduceAdd (outArr m c) (constant S_ .f32 0x00000000#32) reducesTo_S8x1x1_S_d0_1_2 h_S_)
          (constant S_ .f32 0x46800000#32)) (constant S_ .f32 0x4BFFE000#32)) := by
  rw [← W_out m c]
  after_results

theorem mem_unscoped (b : Ref sig .tc) (h : b.isScoped = false) : b ∈ (Finset.univ.filter fun b : Ref sig .tc => ¬ b.isScoped) :=
  Finset.mem_filter.mpr ⟨Finset.mem_univ _, by simp [h]⟩

/-- THE RUN, read at the result and the argument. -/
theorem run_value : θ_run defs (onTc (τ := τ) (main (F := F))) ⟨m, fun _ => 0, ρ⟩ (fun r => ∀ c : Dev nD,
      r.2.mem ((c.tc : Thread nD τ).loc main_v4)
        = Host.log (Host.divf (subf (Host.reduceAdd (outArr m c) (constant S_ .f32 0x00000000#32) reducesTo_S8x1x1_S_d0_1_2 h_S_)
            (constant S_ .f32 0x46800000#32)) (constant S_ .f32 0x4BFFE000#32))
      ∧ r.2.mem ((c.tc : Thread nD τ).loc main_arg0) = m ((c.tc : Thread nD τ).loc main_arg0)) :=
  (θ_run defs _ _).mono (fun r h c => ⟨(h c main_v4 (mem_unscoped main_v4 rfl)).trans (result_eq m c),
    (h c main_arg0 (mem_unscoped main_arg0 rfl)).trans (arg_kept m c)⟩) (run_main m ρ)

/-- THE FRAME: every weakly fair execution terminates, nothing faulting, the argument unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c).2) (run_value m ρ)

end Cert.KernelIdeal.Frame

end
-- ==== Proof.Spec.lean ====
/-
  The dispersion loss, over the reals.

  For a batch of 8 point clouds of 2048 points in dimension 256, the squared distance of two points of one cloud is
  `‖p‖² + ‖q‖² − 2⟨p, q⟩`, clamped at zero, and each ordered pair contributes `exp(−d / (2048 · 50))`. One program sums
  the contributions of ALL ordered pairs and then takes away the number of diagonal pairs, 8 · 2048 = 16384; the other sums
  the off-diagonal pairs only. A diagonal pair has squared distance `2‖p‖² − 2‖p‖² = 0`, hence contributes exactly 1, so
  the two totals agree.
-/
import Mathlib

noncomputable section

namespace Cert.Spec

open Finset

/-- The squared norm of point `l` of cloud `b`. -/
def sq (x : Fin 8 → Fin 2048 → Fin 256 → ℝ) (b : Fin 8) (l : Fin 2048) : ℝ := ∑ f, x b l f * x b l f

/-- The inner product of points `l` and `m` of cloud `b`. -/
def dot (x : Fin 8 → Fin 2048 → Fin 256 → ℝ) (b : Fin 8) (l m : Fin 2048) : ℝ := ∑ f, x b l f * x b m f

/-- The squared distance of the two points, clamped at zero. -/
def dist (x : Fin 8 → Fin 2048 → Fin 256 → ℝ) (b : Fin 8) (l m : Fin 2048) : ℝ :=
  max (sq x b l + sq x b m - 2 * dot x b l m) 0

/-- A pair's contribution, with the scale as ONE factor `−1/102400`. -/
def eK (x : Fin 8 → Fin 2048 → Fin 256 → ℝ) (b : Fin 8) (l m : Fin 2048) : ℝ := Real.exp (dist x b l m * (-1 / 102400))

/-- A pair's contribution, with the scale as two quotients, by 2048 and then by 50. -/
def eR (x : Fin 8 → Fin 2048 → Fin 256 → ℝ) (b : Fin 8) (l m : Fin 2048) : ℝ := Real.exp (-(dist x b l m / 2048) / 50)

/-- All ordered pairs, less the 16384 diagonal ones. -/
def totalK (x : Fin 8 → Fin 2048 → Fin 256 → ℝ) : ℝ := (∑ b, ∑ l, ∑ m, eK x b l m) - 16384

/-- The off-diagonal ordered pairs. -/
def totalR (x : Fin 8 → Fin 2048 → Fin 256 → ℝ) : ℝ := ∑ b, ∑ l, ∑ m, if l = m then 0 else eR x b l m

theorem eK_eq_eR (x : Fin 8 → Fin 2048 → Fin 256 → ℝ) (b : Fin 8) (l m : Fin 2048) : eK x b l m = eR x b l m := by
  unfold eK eR; congr 1; ring

/-- A point is at distance zero from itself. -/
theorem dist_self (x : Fin 8 → Fin 2048 → Fin 256 → ℝ) (b : Fin 8) (l : Fin 2048) : dist x b l l = 0 := by
  unfold dist
  have : sq x b l + sq x b l - 2 * dot x b l l = 0 := by unfold sq dot; ring
  rw [this, max_self]

theorem eR_self (x : Fin 8 → Fin 2048 → Fin 256 → ℝ) (b : Fin 8) (l : Fin 2048) : eR x b l l = 1 := by
  unfold eR; rw [dist_self]; simp

/-- The two totals agree. -/
theorem totalK_eq_totalR (x : Fin 8 → Fin 2048 → Fin 256 → ℝ) : totalK x = totalR x := by
  unfold totalK totalR
  have row : ∀ b l, (∑ m, eK x b l m) = (∑ m, if l = m then 0 else eR x b l m) + 1 := by
    intro b l
    have h : ∀ m, eK x b l m = (if l = m then 0 else eR x b l m) + (if l = m then 1 else 0) := by
      intro m
      by_cases hlm : l = m
      · subst hlm; rw [eK_eq_eR, eR_self]; simp
      · rw [eK_eq_eR]; simp [hlm]
    rw [Finset.sum_congr rfl (fun m _ => h m), Finset.sum_add_distrib]
    simp
  simp only [row, Finset.sum_add_distrib, Finset.sum_const, Finset.card_univ, Fintype.card_fin, smul_eq_mul, nsmul_eq_mul]
  norm_num

end Cert.Spec

end
-- ==== Proof.LibRealArray.lean ====
/-
  Arrays of reals read as arrays of extended reals, for kernels whose arithmetic is +, - and × on finite inputs.

  At the ideal instance a float is an extended real, and the laws a polynomial identity needs (distributivity,
  cancelling a term) fail at ±∞. When every input is finite, every intermediate array of such a kernel is the image
  of an array of REALS under the coercion ℝ → EReal, and the extended reals' sum, difference and product of two such
  arrays are the images of the reals' (`addf_cv`, `subf_cv`, `mulf_cv`). Rewriting with these three turns an equation
  between arrays of extended reals into one between arrays of reals (`cv_congr`), where `ring` applies. Any shape.
  Also here: the float words 0, 1, 2 and 4 as reals, and a splat of 1 or 2 as a constant real-valued array.
-/
import Idealize.ShloMosaic.PureOps.Ideal
import Idealize.ShloMosaic.PureOps.Ideal.Laws
import Idealize.ShloMosaic.Lib.ValueIdx

noncomputable section

namespace Cert.RealArray

open Idealize.ShloMosaic Idealize.ShloMosaic.ValueIdx

variable {s : Shape}

/-- An array of reals read as an array of (finite) extended reals. -/
def cv (f : s.Idx → ℝ) : FVec Ideal s .f32 := fun i => ((f i : ℝ) : EReal)

/-- Its entry at an index is the real entry, coerced. -/
theorem cv_apply (f : s.Idx → ℝ) (i : s.Idx) : cv f i = ((f i : ℝ) : EReal) := rfl

/-- Two real-valued arrays that agree entry by entry have the same image. -/
theorem cv_congr {f g : s.Idx → ℝ} (h : ∀ i, f i = g i) : cv f = cv g := by
  funext i; rw [cv_apply, cv_apply, h i]

/-- On finite values the extended reals' product is the reals'. -/
theorem mulf_cv (f g : s.Idx → ℝ) : mulf (cv f) (cv g) = cv (fun i => f i * g i) := by
  funext i; rw [mulf_apply, cv_apply, cv_apply, cv_apply, EReal.coe_mul]

/-- On finite values the extended reals' sum is the reals'. -/
theorem addf_cv (f g : s.Idx → ℝ) : addf (cv f) (cv g) = cv (fun i => f i + g i) := by
  funext i; rw [addf_apply, cv_apply, cv_apply, cv_apply, EReal.coe_add]

/-- On finite values the extended reals' difference is the reals'. -/
theorem subf_cv (f g : s.Idx → ℝ) : subf (cv f) (cv g) = cv (fun i => f i - g i) := by
  funext i; rw [subf_apply, cv_apply, cv_apply, cv_apply, EReal.coe_sub]

/-! ## Float words as reals -/

/-- The f32 word of 1.0 is the real 1. -/
theorem word_one : Ideal.ofBits .f32 0x3F800000#32 = ((1 : ℝ) : EReal) := by
  simp [Ideal.ofBits, Ideal.ieee, -EReal.coe_mul]; norm_num

/-- The f32 word of 2.0 is the real 2. -/
theorem word_two : Ideal.ofBits .f32 0x40000000#32 = ((2 : ℝ) : EReal) := by
  simp [Ideal.ofBits, Ideal.ieee, -EReal.coe_mul]; norm_num

/-- The f32 word of 4.0 is the real 4. -/
theorem word_four : Ideal.ofBits .f32 0x40800000#32 = ((4 : ℝ) : EReal) := by
  simp [Ideal.ofBits, Ideal.ieee, -EReal.coe_mul]; norm_num

/-- The f32 word of +0.0 is the real 0. -/
theorem word_zero : Ideal.ofBits .f32 0x00000000#32 = ((0 : ℝ) : EReal) := by
  rw [Ideal.ofBits_zero_f32]; rfl

/-- A kernel's splat of 1.0 is the constant real-valued array 1. -/
theorem broadcast_one : broadcast s (Scalar.ofBits (F := Ideal) .f32 0x3F800000#32) = cv (fun _ => (1 : ℝ)) := by
  funext i; exact word_one

/-- A kernel's splat of 2.0 is the constant real-valued array 2. -/
theorem broadcast_two : broadcast s (Scalar.ofBits (F := Ideal) .f32 0x40000000#32) = cv (fun _ => (2 : ℝ)) := by
  funext i; exact word_two

end Cert.RealArray

end
-- ==== Proof.LibFinite.lean ====
/-
  Finite extended reals. An extended real is FINITE when it is a real number. Sums, products, maxima and quotients
  by a non-zero divisor of finite values are finite, and on finite values multiplication distributes over addition
  (on the extended reals it does not in general: `⊤ * (1 + -1) = 0` but `⊤ * 1 + ⊤ * -1 = ⊥`). The last section
  states the two laws a "dense combine" step needs: a sum of products against a sum of two matrices splits into two
  sums of products, and the regrouping of six summands that carries a combined bias to the two summands it belongs to.
-/
import Idealize.ShloMosaic.PureOps.Ideal.Laws

noncomputable section

namespace Cert.LibFinite

open Idealize.ShloMosaic

/-- `x` is a real number (neither `⊤` nor `⊥`). -/
def IsFin (x : EReal) : Prop := ∃ r : ℝ, x = (r : EReal)

namespace IsFin

theorem coe (r : ℝ) : IsFin (r : EReal) := ⟨r, rfl⟩
theorem zero : IsFin (0 : EReal) := ⟨0, rfl⟩
theorem one : IsFin (1 : EReal) := ⟨1, rfl⟩

theorem add {x y : EReal} (hx : IsFin x) (hy : IsFin y) : IsFin (x + y) := by
  obtain ⟨a, rfl⟩ := hx; obtain ⟨b, rfl⟩ := hy
  exact ⟨a + b, (EReal.coe_add a b).symm⟩

theorem mul {x y : EReal} (hx : IsFin x) (hy : IsFin y) : IsFin (x * y) := by
  obtain ⟨a, rfl⟩ := hx; obtain ⟨b, rfl⟩ := hy
  exact ⟨a * b, (EReal.coe_mul a b).symm⟩

theorem max {x y : EReal} (hx : IsFin x) (hy : IsFin y) : IsFin (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem sum {ι : Type} (s : Finset ι) (f : ι → EReal) (h : ∀ i ∈ s, IsFin (f i)) : IsFin (∑ i ∈ s, f i) :=
  Finset.sum_induction f IsFin (fun _ _ => add) zero h

/-- The quotient of the ideal instance by a finite non-zero divisor. -/
theorem div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- A maximum against one is not zero (the divisor of a mean over a count that may be zero). -/
theorem max_one_ne_zero (x : EReal) : Max.max x 1 ≠ 0 :=
  ne_of_gt (lt_of_lt_of_le zero_lt_one (le_max_right x 1))

end IsFin

/-! ## The laws on finite values -/

/-- On finite values multiplication distributes over addition. -/
theorem mul_add_of_fin {x a b : EReal} (hx : IsFin x) (ha : IsFin a) (hb : IsFin b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A sum of products against a sum of two families splits, all factors finite: row `x` against the column of
    `A + B` is row `x` against the column of `A` plus row `x` against the column of `B`. -/
theorem sum_mul_add {ι : Type} [Fintype ι] (x a b : ι → EReal) (hx : ∀ k, IsFin (x k)) (ha : ∀ k, IsFin (a k))
    (hb : ∀ k, IsFin (b k)) : ∑ k, x k * (a k + b k) = ∑ k, x k * a k + ∑ k, x k * b k := by
  rw [← Finset.sum_add_distrib]
  exact Finset.sum_congr rfl fun k _ => mul_add_of_fin (hx k) (ha k) (hb k)

/-- Six summands regrouped: the two aggregated terms `P`, `Q`, the two self terms `X₀`, `X₃` and the two biases, summed
    as "(P + Q) + (X₀ + X₃) + (b₀ + b₃)", are the sum of the two relations' own "(P + b₀) + X₀" and "(Q + b₃) + X₃".
    Addition of extended reals is commutative and associative everywhere, so no finiteness is needed. -/
theorem combine_regroup (P Q X₀ X₃ b₀ b₃ : EReal) :
    P + Q + (X₀ + X₃) + (b₀ + b₃) = (P + b₀ + X₀) + (Q + b₃ + X₃) := by
  abel

end Cert.LibFinite

end
-- ==== Proof.LibFinDecode.lean ====
/-
  "Every entry is finite", decoded from its printed test, over the extended reals.

  A precondition written `all(|x| < +∞)` prints as a reduction by `and` of the entrywise comparison of `|x|` with the
  f32 word of `+∞`. On the extended reals `|x| = max x (−x)`, and `max x (−x) < ⊤` rules out both infinities: what
  is left is a real number. Stated for one array of any shape reduced along any axes to a scalar, whatever evidence
  the program carries for the broadcast and the reduction.
-/
import proofs.«110182_j41772851921541_2_alg».proof.Proof.LibFinite
import Idealize.ShloMosaic.Lib.ReduceAll
import Idealize.ShloMosaic.Lib.Pipeline.Value
import Idealize.ShloMosaic.Lib.ValueIdx

noncomputable section

namespace Cert.LibFinDecode

open Idealize.ShloMosaic Idealize.ShloMosaic.ValueIdx Cert.LibFinite

/-- The scalar shape has one index. -/
instance : Subsingleton (⟨0, ![]⟩ : Shape).Idx := ⟨fun a b => funext fun d => d.elim0⟩

/-- The f32 word `0x7F800000` is `+∞`. -/
theorem word_inf : Ideal.ofBits .f32 0x7F800000#32 = ⊤ := by simp [Ideal.ofBits, Ideal.ieee]

/-- An extended real whose absolute value is below `+∞` is a real number. -/
theorem isFin_of_abs_lt (x : EReal) (h : Ideal.cmp .olt (max x (-x)) (Ideal.ofBits .f32 0x7F800000#32) = 1#1) : IsFin x := by
  rw [word_inf] at h
  induction x using EReal.rec with
  | bot => simp [Ideal.cmp] at h
  | coe r => exact ⟨r, rfl⟩
  | top => simp [Ideal.cmp] at h

/-- One array's conjunct: if "all entries are below +∞ in absolute value" evaluates to true, every entry is real. -/
theorem all_fin {s : Shape} {axes : List (Fin s.rank)} (x : FVec Ideal s .f32) (hb : (⟨0, ![]⟩ : Shape).BroadcastsInDim s ![])
    (hr : s.ReducesTo axes (⟨0, ![]⟩ : Shape)) (hu : 0 < (⟨0, ![]⟩ : Shape).numel)
    (e : Host.reduce IntOp.andi (cmpf .olt (Host.absf x) (broadcastInDim s ![] hb (constant (⟨0, ![]⟩ : Shape) .f32 0x7F800000#32)))
      (constantI (⟨0, ![]⟩ : Shape) 1 1#1) hr hu ix0 = 1#1) (i : s.Idx) : IsFin (x i) := by
  have h1 := Host.reduce_andi_all _ _ hr hu ix0 e i
  have h2 : broadcastInDim s ![] hb (constant (F := Ideal) (⟨0, ![]⟩ : Shape) .f32 0x7F800000#32) i = Ideal.ofBits .f32 0x7F800000#32 :=
    broadcastInDim_apply _ hb _ i ix0 (fun a => a.elim0)
  apply isFin_of_abs_lt
  rw [← h2]
  exact h1

end Cert.LibFinDecode

end
-- ==== Proof.LibSumIdx3.lean ====
/-
  A sum over a rank-3 index set is the triple sum over its coordinates (a general module: it mentions no program).

  An index of the shape `[n0, n1, n2]` is its three coordinates, so the index set is the product
  `Fin n0 × Fin n1 × Fin n2` and a finite sum over it, in any commutative monoid, can be run coordinate by coordinate.
-/
import Idealize.ShloMosaic.Lib.ValueIdx

noncomputable section

open scoped BigOperators

namespace Cert.Lib.SumIdx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Lib.SumIdx3

end
-- ==== Proof.LibSumRegroup.lean ====
/-
  Finite sums in a commutative monoid, regrouped (a general lemma file: it imports Mathlib only and mentions no program).

  The kernel adds the squared differences tile by tile and lane by lane; the reference adds them all at once.
  Both are the same finite family of summands, and in a commutative monoid (the extended reals under addition are
  one: `+` is commutative and associative there, infinities included) a finite sum does not depend on how the
  family is cut up or in which order it is run through.  No finiteness of the summands is used anywhere.

  * `sum_range_mul`: `m * n` consecutive terms are `m` runs of `n` terms.
  * `regroup`: rows `(p * K + k) * R + r` (half `p`, step `k`, row `r` inside the tile), summed for each lane
    `l` first over the rows of a tile, then over the steps, then over the lanes, then over the halves, exhaust
    the `P * K * R` rows times `L` lanes exactly once.
  * `regroup_fin`: the same over `Fin`-indexed families.
-/
import Mathlib.Algebra.BigOperators.Group.Finset.Basic
import Mathlib.Algebra.BigOperators.Intervals
import Mathlib.Algebra.BigOperators.Fin

namespace SumLaw

open Finset

variable {M : Type*} [AddCommMonoid M]

/-- `m * n` consecutive terms are `m` runs of `n` terms. -/
theorem sum_range_mul (f : ℕ → M) (m n : ℕ) :
    ∑ x ∈ range (m * n), f x = ∑ i ∈ range m, ∑ r ∈ range n, f (i * n + r) := by
  induction m with
  | zero => simp
  | succ m ih => rw [Nat.succ_mul, sum_range_add, ih, sum_range_succ]

/-- Tile by tile and lane by lane is row by row: every (row, lane) pair is met exactly once. -/
theorem regroup (f : ℕ → ℕ → M) (P K R L : ℕ) :
    ∑ p ∈ range P, ∑ l ∈ range L, ∑ k ∈ range K, ∑ r ∈ range R, f ((p * K + k) * R + r) l
      = ∑ row ∈ range (P * K * R), ∑ l ∈ range L, f row l := by
  rw [sum_range_mul (fun row => ∑ l ∈ range L, f row l) (P * K) R,
    sum_range_mul (fun i => ∑ r ∈ range R, ∑ l ∈ range L, f (i * R + r) l) P K]
  refine sum_congr rfl fun p _ => ?_
  refine sum_comm.trans (sum_congr rfl fun k _ => ?_)
  exact sum_comm

/-- `regroup` for families indexed by `Fin`: `idx p k r` is row `(p * K + k) * R + r`. -/
theorem regroup_fin {P K R L N : ℕ} (hN : P * K * R = N) (g : Fin N → Fin L → M)
    (idx : Fin P → Fin K → Fin R → Fin N)
    (hidx : ∀ p k r, (idx p k r).val = (p.val * K + k.val) * R + r.val) :
    ∑ p : Fin P, ∑ l : Fin L, ∑ k : Fin K, ∑ r : Fin R, g (idx p k r) l
      = ∑ row : Fin N, ∑ l : Fin L, g row l := by
  subst hN
  let f : ℕ → ℕ → M := fun a b => if h : a < P * K * R ∧ b < L then g ⟨a, h.1⟩ ⟨b, h.2⟩ else 0
  have e : ∀ (a : Fin (P * K * R)) (l : Fin L), g a l = f a.val l := fun a l => by
    simp only [f, dif_pos (And.intro a.isLt l.isLt)]
  have key := regroup f P K R L
  simp only [Finset.sum_range] at key
  have lhs : ∀ (p : Fin P) (l : Fin L) (k : Fin K) (r : Fin R),
      g (idx p k r) l = f ((p.val * K + k.val) * R + r.val) l.val := fun p l k r => by rw [e, hidx]
  simp only [lhs, e]
  exact key

end SumLaw
-- ==== Proof.TailValue.lean ====
/-
  The ends of the computation, over the reals.

  Three facts that surround the per-cloud sums. First, an input array that passes the test "every entry is below +∞ in
  absolute value" is the image of an array of reals. Second, the closing arithmetic on the host: the eight per-cloud
  numbers are added up from zero and 16384 (the number of diagonal pairs, 8 · 2048) is taken away. Third, a sum over
  the 2048 rows of a cloud can be run as four quarter-clouds of 512 rows, adding the four quarters' terms row by row.
-/
import proofs.«110182_j41772851921541_2_alg».proof.KernelIdeal
import proofs.«110182_j41772851921541_2_alg».proof.Pre_finite_inputs
import proofs.«110182_j41772851921541_2_alg».proof.Proof.LibRealArray
import proofs.«110182_j41772851921541_2_alg».proof.Proof.LibFinite
import proofs.«110182_j41772851921541_2_alg».proof.Proof.LibFinDecode
import proofs.«110182_j41772851921541_2_alg».proof.Proof.LibSumIdx3
import proofs.«110182_j41772851921541_2_alg».proof.Proof.LibSumRegroup
import Idealize.ShloMosaic.PureOps.Ideal.Laws
import Idealize.ShloMosaic.Lib.ValueIdx

noncomputable section

namespace Cert.TailValue

open Idealize.ShloMosaic Idealize.ShloMosaic.ValueIdx Cert.KernelIdeal Cert.KernelIdeal.Facts₀ Cert.RealArray

/-! ## Finite inputs are real -/

/-- An argument array on which "all entries are finite" evaluates to true is the image of an array of reals. -/
theorem real_of_pre [Cert.Pre_finite_inputs.Facts] (z : FVec Ideal Cert.Pre_finite_inputs.S8x2048x256 .f32)
    (h : Cert.Pre_finite_inputs.fn (F := Ideal) z = fun _ => 1#1) :
    ∃ x : Cert.KernelIdeal.S8x2048x256.Idx → ℝ, z = cv x := by
  have e := congrFun h ix0
  unfold Cert.Pre_finite_inputs.fn at e
  dsimp only at e
  have hfin : ∀ i, Cert.LibFinite.IsFin (z i) := fun i =>
    Cert.LibFinDecode.all_fin z Cert.Pre_finite_inputs.Facts.bcast_S_S8x2048x256
      Cert.Pre_finite_inputs.Facts.reducesTo_S8x2048x256_S_d0_1_2 Cert.Pre_finite_inputs.Facts.h_S_ e i
  choose x hx using hfin
  exact ⟨x, funext fun i => hx i⟩

/-! ## The closing arithmetic on the host -/

/-- The coercion ℝ → EReal commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 word of 16384.0 is the real 16384. -/
theorem word_16384 : Ideal.ofBits .f32 0x46800000#32 = ((16384 : ℝ) : EReal) := by
  simp [Ideal.ofBits, Ideal.ieee, -EReal.coe_mul]; norm_num

/-- The eight per-cloud numbers added up from zero, less 16384. -/
theorem tail_eq [Cert.KernelIdeal.Facts] (o : S8x1x1.Idx → ℝ) :
    subf (Host.reduceAdd (F := Ideal) (cv o) (constant (F := Ideal) S_ .f32 0x00000000#32) reducesTo_S8x1x1_S_d0_1_2 h_S_)
        (constant (F := Ideal) S_ .f32 0x46800000#32)
      = cv (fun _ => (∑ b : Fin 8, o (ix3 b 0 0)) - 16384) := by
  funext i
  have hred : Host.reduceAdd (F := Ideal) (cv o) (constant (F := Ideal) S_ .f32 0x00000000#32) reducesTo_S8x1x1_S_d0_1_2 h_S_ i
      = (constant (F := Ideal) S_ .f32 0x00000000#32) (Shape.Idx.first h_S_) + ∑ j : S8x1x1.Idx, cv o j := by
    simp only [Host.reduceAdd, Ideal.hostReduceAdd_def]
    exact Ideal.hostReduceAdd_total reducesTo_S8x1x1_S_d0_1_2 (fun b => b.elim0) (cv o) _ i
  rw [subf_apply, hred, constant_apply, constant_apply, word_zero, word_16384, Cert.Lib.SumIdx3.sum_idx3, cv_apply,
    EReal.coe_sub, coe_sum, EReal.coe_zero, zero_add]
  refine congrArg (· - ((16384 : ℝ) : EReal)) (Finset.sum_congr rfl fun b _ => ?_)
  rw [Fin.sum_univ_one, Fin.sum_univ_one, cv_apply]

/-! ## A cloud's rows, quarter by quarter -/

/-- Row `r` of quarter `qi` of a cloud: row `512 · qi + r` of the 2048. -/
def row (qi : Fin 4) (r : Fin 512) : Fin 2048 := ⟨qi.val * 512 + r.val, by have := qi.isLt; have := r.isLt; omega⟩

/-- Adding, for each of the 512 rows of a quarter, the four quarters' terms (from zero, quarter after quarter) exhausts
    the 2048 rows exactly once. -/
theorem rows_regroup (g : Fin 2048 → ℝ) :
    ∑ r : Fin 512, ((((0 + g (row 0 r)) + g (row 1 r)) + g (row 2 r)) + g (row 3 r)) = ∑ l : Fin 2048, g l := by
  let f : ℕ → ℝ := fun n => if h : n < 2048 then g ⟨n, h⟩ else 0
  have e : ∀ l : Fin 2048, g l = f l.val := fun l => by simp only [f, dif_pos l.isLt]
  have hrow : ∀ (qi : Fin 4) (r : Fin 512), g (row qi r) = f (qi.val * 512 + r.val) := fun qi r => e (row qi r)
  have R : ∑ l : Fin 2048, g l = ∑ r ∈ Finset.range 512, ∑ i ∈ Finset.range 4, f (i * 512 + r) := by
    rw [Finset.sum_congr rfl (fun l _ => e l), Fin.sum_univ_eq_sum_range f 2048,
      show (2048 : ℕ) = 4 * 512 from rfl, SumLaw.sum_range_mul, Finset.sum_comm]
  rw [R, ← Fin.sum_univ_eq_sum_range (fun r => ∑ i ∈ Finset.range 4, f (i * 512 + r)) 512]
  refine Finset.sum_congr rfl fun r _ => ?_
  rw [hrow, hrow, hrow, hrow]
  simp only [Finset.sum_range_succ, Finset.sum_range_zero]
  rfl

end Cert.TailValue

end
-- ==== Proof.RefTotal.lean ====
/-
  The reference program's total, as a real number.

  On an input of finite values every stage of the reference program is the image of an array of reals under the
  coercion from the reals to the extended reals: the squared norms and inner products are finite sums of products, the
  clamped squared distance is a maximum against zero, the two scalings are quotients by the non-zero constants 2048 and
  50, and the exponential of a real is a real. The mask built from two iotas keeps the ordered pairs of distinct
  points, and the last sum, over a rank-3 index set, is the triple sum over the coordinates.
-/
import proofs.«110182_j41772851921541_2_alg».proof.Proof.Spec
import proofs.«110182_j41772851921541_2_alg».proof.Proof.LibRealArray
import proofs.«110182_j41772851921541_2_alg».proof.Proof.LibSumIdx3
import proofs.«110182_j41772851921541_2_alg».proof.Proof.Gen.ReferenceIdeal.Read
import Idealize.ShloMosaic.Lib.Affine

noncomputable section

namespace Cert.RefTotal

open Idealize.ShloMosaic Idealize.ShloMosaic.ValueIdx Cert.ReferenceIdeal Cert.ReferenceIdeal.Read Cert.RealArray

/-! ## Coercion of reals to extended reals -/

/-- The coercion commutes with a finite sum. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion commutes with a maximum. -/
theorem coe_max (a b : ℝ) : ((max a b : ℝ) : EReal) = max (a : EReal) (b : EReal) :=
  EReal.coe_strictMono.monotone.map_max

/-- The quotient of a real by a non-zero real, at the ideal instance, is the real quotient. -/
theorem div_coe_coe (a : ℝ) {c : ℝ} (hc : c ≠ 0) : Ideal.div (a : EReal) (c : EReal) = ((a / c : ℝ) : EReal) := by
  have h0 : (c : EReal) ≠ 0 := by
    intro h; exact hc (EReal.coe_eq_zero.mp h)
  unfold Ideal.div
  rw [if_neg h0, ← EReal.coe_inv, ← EReal.coe_mul, div_eq_mul_inv]

/-- The f32 word of 2048.0 is the real 2048. -/
theorem word_2048 : Ideal.ofBits .f32 0x45000000#32 = ((2048 : ℝ) : EReal) := by
  simp [Ideal.ofBits, Ideal.ieee, -EReal.coe_mul]; norm_num

/-- The f32 word of 50.0 is the real 50. -/
theorem word_50 : Ideal.ofBits .f32 0x42480000#32 = ((50 : ℝ) : EReal) := by
  simp [Ideal.ofBits, Ideal.ieee, -EReal.coe_mul]; norm_num

/-! ## Indices of the two contractions -/

/-- The input read as a family of reals over its three coordinates. -/
abbrev X (x : S8x2048x256.Idx → ℝ) : Fin 8 → Fin 2048 → Fin 256 → ℝ := fun b l f => x (ix3 b l f)

theorem idx_v1_eq (i : S8x2048.Idx) (k : Fin 256) : idx_main_v1 i k = ix3 (i 0) (i 1) k := by
  funext a; match a with | ⟨0, _⟩ => rfl | ⟨1, _⟩ => rfl | ⟨2, _⟩ => rfl

theorem lidx_v2_eq (i : S8x2048x2048.Idx) (k : Fin 256) : lidx_main_v2 i k = ix3 (i 0) (i 1) k := by
  funext a; match a with | ⟨0, _⟩ => rfl | ⟨1, _⟩ => rfl | ⟨2, _⟩ => rfl

theorem ridx_v2_eq (i : S8x2048x2048.Idx) (k : Fin 256) : ridx_main_v2 i k = ix3 (i 0) (i 2) k := by
  funext a; match a with | ⟨0, _⟩ => rfl | ⟨1, _⟩ => rfl | ⟨2, _⟩ => rfl

/-! ## The stages, as coerced reals -/

/-- The row sums of squares are the squared norms. -/
theorem v1_eq (x : S8x2048x256.Idx → ℝ) (i : S8x2048.Idx) :
    val_main_v1 (F := Ideal) (cv x) i = ((Spec.sq (X x) (i 0) (i 1) : ℝ) : EReal) := by
  rw [val_main_v1_apply, val_main_cst_apply, Ideal.ofBits_def, word_zero, EReal.coe_zero, zero_add]
  unfold Spec.sq
  rw [coe_sum]
  refine Finset.sum_congr rfl fun k _ => ?_
  rw [val_main_v0_apply, Ideal.mulf_def, idx_v1_eq]
  exact (EReal.coe_mul _ _).symm

/-- The batched contraction is the inner product of the two points. -/
theorem v2_eq (x : S8x2048x256.Idx → ℝ) (i : S8x2048x2048.Idx) :
    val_main_v2 (F := Ideal) (cv x) i = ((Spec.dot (X x) (i 0) (i 1) (i 2) : ℝ) : EReal) := by
  rw [val_main_v2_apply]
  unfold Spec.dot
  rw [coe_sum]
  refine Finset.sum_congr rfl fun k _ => ?_
  rw [lidx_v2_eq, ridx_v2_eq]
  exact (EReal.coe_mul _ _).symm

/-- The clamped squared distance. -/
theorem v12_eq (x : S8x2048x256.Idx → ℝ) (i : S8x2048x2048.Idx) :
    val_main_v12 (F := Ideal) (cv x) i = ((Spec.dist (X x) (i 0) (i 1) (i 2) : ℝ) : EReal) := by
  rw [val_main_v12_apply, val_main_v10_apply, val_main_v7_apply, val_main_v9_apply, val_main_v5_apply,
    val_main_v3_apply, val_main_v6_apply, val_main_v4_apply, v1_eq, v1_eq, v2_eq, val_main_v8_apply,
    val_main_cst_0_apply, val_main_v11_apply, val_main_cst_1_apply]
  rw [Ideal.ofBits_def, Ideal.ofBits_def, word_two, word_zero, Ideal.maximumf_def, Ideal.subf_def, Ideal.addf_def,
    Ideal.mulf_def]
  rw [← EReal.coe_add, ← EReal.coe_mul, ← EReal.coe_sub, ← coe_max]
  rfl

/-- A pair's contribution: the two quotients, the negation and the exponential. -/
theorem v18_eq (x : S8x2048x256.Idx → ℝ) (i : S8x2048x2048.Idx) :
    val_main_v18 (F := Ideal) (cv x) i = ((Spec.eR (X x) (i 0) (i 1) (i 2) : ℝ) : EReal) := by
  rw [val_main_v18_apply, val_main_v17_apply, val_main_v15_apply, val_main_v14_apply, v12_eq, val_main_v13_apply,
    val_main_cst_2_apply, val_main_v16_apply, val_main_cst_3_apply]
  rw [Ideal.ofBits_def, Ideal.ofBits_def, word_2048, word_50, Ideal.hostUnary_exp_def, Ideal.hostDivf_def,
    Ideal.hostDivf_def, Ideal.hostNegf_def, Ideal.negf_def, div_coe_coe _ (by norm_num), ← EReal.coe_neg,
    div_coe_coe _ (by norm_num), Ideal.exp_coe]
  rfl

/-! ## The mask -/

/-- Two 32-bit words of numbers below 2048 are equal only when the numbers are. -/
theorem ofNat_inj_of_lt {a b : Nat} (ha : a < 2048) (hb : b < 2048) :
    BitVec.ofNat 32 a = BitVec.ofNat 32 b ↔ a = b := by
  constructor
  · intro h
    have h' := congrArg BitVec.toNat h
    simp only [BitVec.toNat_ofNat] at h'
    omega
  · rintro rfl; rfl

/-- The negated comparison of the two iotas selects the off-diagonal value. -/
theorem mask_select (l m : Fin 2048) (a b : EReal) :
    Scalar.select (~~~(IntOp.cmpi .eq (IntOp.addi (BitVec.ofNat 32 l.val) 0#32) (BitVec.ofNat 32 m.val))) a b
      = if l = m then b else a := by
  have hc : (~~~(IntOp.cmpi .eq (IntOp.addi (BitVec.ofNat 32 l.val) 0#32) (BitVec.ofNat 32 m.val)) = 1#1)
      ↔ ¬ l = m := by
    rw [IntOp.not_eq_one, IntOp.cmpi_eq]
    unfold IntOp.addi
    rw [BitVec.add_zero, ofNat_inj_of_lt l.isLt m.isLt, Fin.val_inj]
  unfold Scalar.select
  by_cases h : l = m
  · rw [if_pos h]; exact if_neg (fun hh => (hc.mp hh) h)
  · rw [if_neg h]; exact if_pos (hc.mpr h)

/-- The selected array: zero on the diagonal, the pair's contribution elsewhere. -/
theorem v26_eq (x : S8x2048x256.Idx → ℝ) (b : Fin 8) (l m : Fin 2048) :
    val_main_v26 (F := Ideal) (cv x) (ix3 b l m)
      = (((if l = m then 0 else Spec.eR (X x) b l m) : ℝ) : EReal) := by
  rw [val_main_v26_apply, val_main_call0_v1_apply, val_main_v25_apply, val_main_v24_apply, val_main_v23_apply,
    val_main_v22_apply, val_main_v19_apply, val_main_v20_apply, val_main_v21_apply, val_main_c_apply,
    val_main_call0_v2_apply, val_main_call0_v0_apply, val_main_cst_4_apply, v18_eq, Ideal.ofBits_def, word_zero]
  refine (mask_select l m _ _).trans ?_
  by_cases h : l = m
  · rw [if_pos h, if_pos h]
  · rw [if_neg h, if_neg h]

/-! ## The total -/

/-- The reference program's sum over all three axes is the off-diagonal total of the specification. -/
theorem total_eq (x : S8x2048x256.Idx → ℝ) :
    val_main_v27 (F := Ideal) (cv x)
      = fun _ => ((Spec.totalR (fun b l f => x (ix3 b l f)) : ℝ) : EReal) := by
  funext i
  rw [val_main_v27_apply, val_main_cst_5_apply, Ideal.ofBits_def, word_zero, EReal.coe_zero, zero_add]
  rw [Cert.Lib.SumIdx3.sum_idx3]
  unfold Spec.totalR
  rw [coe_sum]
  refine Finset.sum_congr rfl fun b _ => ?_
  rw [coe_sum]
  refine Finset.sum_congr rfl fun l _ => ?_
  rw [coe_sum]
  refine Finset.sum_congr rfl fun m _ => ?_
  exact v26_eq x b l m

end Cert.RefTotal

end
-- ==== Proof.BlockValue.lean ====
/-
  From the windows' blocks to the arrays.

  The grid has 8 rows of 4 points; point `t` is tile `t % 4` of cloud `t / 4`. Window 0's block at point `t` is the
  512 query points `(t % 4)·512 … (t % 4)·512 + 511` of cloud `t / 4`, window 1's block is the whole cloud `t / 4`, and
  window 2's block is the one output number of cloud `t / 4`. A block's coordinate in its array is the block index times
  the block's extent plus the coordinate inside the block. The output array is written back at the last point of each
  row only, and these eight blocks cover it: entry `b` ends holding what point `4b + 3` left in the output block.
-/
import proofs.«110182_j41772851921541_2_alg».proof.Proof.FrameData
import proofs.«110182_j41772851921541_2_alg».proof.Proof.LibRealArray

set_option maxRecDepth 16384

noncomputable section

namespace Cert.BlockValue

open Cert.KernelIdeal Cert.KernelIdeal.Gen Cert.KernelIdeal.Frame Cert.RealArray
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]

/-! ## The block indices, decided over the grid -/

theorem idx_facts0 : ∀ t : Fin cfg0.N, win0_0.index t (0 : Fin 3) = t.val / 4
    ∧ win0_0.index t (1 : Fin 3) = t.val % 4 ∧ win0_0.index t (2 : Fin 3) = 0 :=
  (by decide +kernel : ∀ t : Fin grid0.N, _)

theorem idx_facts1 : ∀ t : Fin cfg0.N, win0_1.index t (0 : Fin 3) = t.val / 4
    ∧ win0_1.index t (1 : Fin 3) = 0 ∧ win0_1.index t (2 : Fin 3) = 0 :=
  (by decide +kernel : ∀ t : Fin grid0.N, _)

theorem idx_facts2 : ∀ t : Fin cfg0.N, win0_2.index t (0 : Fin 3) = t.val / 4
    ∧ win0_2.index t (1 : Fin 3) = 0 ∧ win0_2.index t (2 : Fin 3) = 0 :=
  (by decide +kernel : ∀ t : Fin grid0.N, _)

/-! ## The input blocks, read off the argument array -/

/-- Window 0's block at point `t`: query point `y 1` of the tile is point `(t % 4)·512 + y 1` of cloud `t / 4`. -/
theorem iblk0_apply (m : (ℓ : Loc nD τ sig) → Buf (Elt F) ℓ) (c : Dev nD) (t : Fin cfg0.N) (y : S1x512x256.Idx)
    (k : S8x2048x256.Idx) (hk0 : (k 0).val = t.val / 4) (hk1 : (k 1).val = (t.val % 4) * 512 + (y 1).val)
    (hk2 : (k 2).val = (y 2).val) :
    (iblk m c 0 t : Vec F S1x512x256 .f32) y = (V m c main_arg0 : S8x2048x256.Idx → Elt F .f32) k := by
  obtain ⟨e0, e1, e2⟩ := idx_facts0 t
  unfold iblk
  rw [View.read_apply]
  show V m c main_arg0 _ = V m c main_arg0 _
  congr 1
  funext a
  apply Fin.ext
  match a with
  | ⟨0, _⟩ => show win0_0.index t (0 : Fin 3) * 1 + 1 * (y 0).val = (k 0).val; have hy : (y 0).val < 1 := (y 0).isLt; omega
  | ⟨1, _⟩ => show win0_0.index t (1 : Fin 3) * 512 + 1 * (y 1).val = (k 1).val; omega
  | ⟨2, _⟩ => show win0_0.index t (2 : Fin 3) * 256 + 1 * (y 2).val = (k 2).val; omega

/-- Window 1's block at point `t`: point `y 1` of cloud `t / 4`. -/
theorem iblk1_apply (m : (ℓ : Loc nD τ sig) → Buf (Elt F) ℓ) (c : Dev nD) (t : Fin cfg0.N) (y : S1x2048x256.Idx)
    (k : S8x2048x256.Idx) (hk0 : (k 0).val = t.val / 4) (hk1 : (k 1).val = (y 1).val) (hk2 : (k 2).val = (y 2).val) :
    (iblk m c 1 t : Vec F S1x2048x256 .f32) y = (V m c main_arg0 : S8x2048x256.Idx → Elt F .f32) k := by
  obtain ⟨e0, e1, e2⟩ := idx_facts1 t
  unfold iblk
  rw [View.read_apply]
  show V m c main_arg0 _ = V m c main_arg0 _
  congr 1
  funext a
  apply Fin.ext
  match a with
  | ⟨0, _⟩ => show win0_1.index t (0 : Fin 3) * 1 + 1 * (y 0).val = (k 0).val; have hy : (y 0).val < 1 := (y 0).isLt; omega
  | ⟨1, _⟩ => show win0_1.index t (1 : Fin 3) * 2048 + 1 * (y 1).val = (k 1).val; omega
  | ⟨2, _⟩ => show win0_1.index t (2 : Fin 3) * 256 + 1 * (y 2).val = (k 2).val; omega

/-- A point's cloud is one of the 8. -/
theorem cloud_lt (t : Fin cfg0.N) : t.val / 4 < 8 := by
  have h := t.isLt; have hN := N_eq; omega

/-- A tile's query point is one of the cloud's 2048. -/
theorem query_lt (t : Fin cfg0.N) (y : S1x512x256.Idx) : (t.val % 4) * 512 + (y 1).val < 2048 := by
  have hy : (y 1).val < 512 := (y 1).isLt; omega

/-- On a real-valued argument array, window 0's block is the tile of real query points. -/
theorem iblk0_eq (m : (ℓ : Loc nD τ sig) → Buf (Elt Ideal) ℓ) (c : Dev nD) (x : S8x2048x256.Idx → ℝ)
    (hx : V m c main_arg0 = cv x) (t : Fin cfg0.N) :
    iblk m c 0 t = cv (fun y : S1x512x256.Idx =>
      x (ix3 ⟨t.val / 4, cloud_lt t⟩ ⟨(t.val % 4) * 512 + (y 1).val, query_lt t y⟩ (y 2))) := by
  funext y
  rw [iblk0_apply m c t y (ix3 ⟨t.val / 4, cloud_lt t⟩ ⟨(t.val % 4) * 512 + (y 1).val, query_lt t y⟩ (y 2)) rfl rfl rfl, hx]
  rfl

/-- On a real-valued argument array, window 1's block is the real cloud. -/
theorem iblk1_eq (m : (ℓ : Loc nD τ sig) → Buf (Elt Ideal) ℓ) (c : Dev nD) (x : S8x2048x256.Idx → ℝ)
    (hx : V m c main_arg0 = cv x) (t : Fin cfg0.N) :
    iblk m c 1 t = cv (fun y : S1x2048x256.Idx => x (ix3 ⟨t.val / 4, cloud_lt t⟩ (y 1) (y 2))) := by
  funext y
  rw [iblk1_apply m c t y (ix3 ⟨t.val / 4, cloud_lt t⟩ (y 1) (y 2)) rfl rfl rfl, hx]
  rfl

/-! ## The output array after all write-backs -/

variable (m : (ℓ : Loc nD τ sig) → Buf (Elt F) ℓ)

/-- The scratches' contents depend on the point's number only. -/
theorem stAt_congr (c : Dev nD) {n n' : ℕ} (h : n = n') (hn : n < cfg0.N) (hn' : n' < cfg0.N) :
    stAt m c n hn = stAt m c n' hn' := by
  subst h; rfl

/-- The last point of row `i 0` is a point of the grid. -/
theorem last_lt (i : S8x1x1.Idx) : 4 * (i 0).val + 3 < cfg0.N := by
  have h : (i 0).val < 8 := (i 0).isLt
  have hN := N_eq
  omega

/-- What the output array ends holding: entry `b` is what the last point of row `b` left in the output block. -/
abbrev G (c : Dev nD) : S8x1x1.Idx → Elt F .f32 := fun i =>
  k0_pay1 (stAt m c (4 * (i 0).val + 3) (last_lt i)).2 (ix3 (0 : Fin 1) (0 : Fin 1) (0 : Fin 1))

/-- What a flushing point writes back is its block of `G`. -/
theorem flushed2_eq (c : Dev nD) (t : Fin cfg0.N) (hf : (cfg0.win 2).flush t = true) :
    (dats m 0 c).flushed 2 t = ((cfg0.win 2).blk t).view.read (Elt F) (G m c) := by
  have h3 : t.val % 4 = 3 := (flush0_2 t).mp hf
  obtain ⟨e0, e1, e2⟩ := idx_facts2 t
  show (cfg0.win 2).cut (grid0.coords t) ((dats m 0 c).after 2 t) = _
  rw [after2, if_pos h3]
  funext j
  have hj0 : (j 0).val < 1 := (j 0).isLt
  have hj1 : (j 1).val < 1 := (j 1).isLt
  have hj2 : (j 2).val < 1 := (j 2).isLt
  have hj : j = ix3 (0 : Fin 1) (0 : Fin 1) (0 : Fin 1) := by
    funext a
    apply Fin.ext
    match a with
    | ⟨0, _⟩ => show (j 0).val = 0; omega
    | ⟨1, _⟩ => show (j 1).val = 0; omega
    | ⟨2, _⟩ => show (j 2).val = 0; omega
  have hemb : 4 * ((((cfg0.win 2).blk t).view.emb j) 0).val + 3 = t.val := by
    show 4 * (win0_2.index t (0 : Fin 3) * 1 + 1 * (j 0).val) + 3 = t.val
    omega
  show k0_pay1 (stAt m c t.val t.isLt).2 j
    = k0_pay1 (stAt m c (4 * ((((cfg0.win 2).blk t).view.emb j) 0).val + 3) (last_lt _)).2 (ix3 (0 : Fin 1) (0 : Fin 1) (0 : Fin 1))
  rw [stAt_congr m c hemb (last_lt _) t.isLt, ← hj]

/-- The output array after the run. -/
theorem out_arr (c : Dev nD) : (dats m 0 c).arrAt 2 cfg0.N = G m c :=
  (dats m 0 c).arrAt_eq_of_cover 2 (G m c) (flushed2_eq m c) fun i => by
    have hi0 : (i 0).val < 8 := (i 0).isLt
    have hi1 : (i 1).val < 1 := (i 1).isLt
    have hi2 : (i 2).val < 1 := (i 2).isLt
    obtain ⟨e0, e1, e2⟩ := idx_facts2 ⟨4 * (i 0).val + 3, last_lt i⟩
    have e0' : win0_2.index ⟨4 * (i 0).val + 3, last_lt i⟩ (0 : Fin 3) = (4 * (i 0).val + 3) / 4 := e0
    refine ⟨⟨4 * (i 0).val + 3, last_lt i⟩, (flush0_2 _).mpr (by show (4 * (i 0).val + 3) % 4 = 3; omega), ?_⟩
    show i ∈ ((View.whole main_v0).slice (win0_2.rect ⟨4 * (i 0).val + 3, last_lt i⟩)).set
    rw [View.set_slice_whole, Rect.mem_set_unit]
    intro a
    match a with
    | ⟨0, _⟩ =>
      show win0_2.index ⟨4 * (i 0).val + 3, last_lt i⟩ (0 : Fin 3) * 1 ≤ (i 0).val
        ∧ (i 0).val < win0_2.index ⟨4 * (i 0).val + 3, last_lt i⟩ (0 : Fin 3) * 1 + 1
      omega
    | ⟨1, _⟩ =>
      show win0_2.index ⟨4 * (i 0).val + 3, last_lt i⟩ (1 : Fin 3) * 1 ≤ (i 1).val
        ∧ (i 1).val < win0_2.index ⟨4 * (i 0).val + 3, last_lt i⟩ (1 : Fin 3) * 1 + 1
      omega
    | ⟨2, _⟩ =>
      show win0_2.index ⟨4 * (i 0).val + 3, last_lt i⟩ (2 : Fin 3) * 1 ≤ (i 2).val
        ∧ (i 2).val < win0_2.index ⟨4 * (i 0).val + 3, last_lt i⟩ (2 : Fin 3) * 1 + 1
      omega

/-- Entry `(b, 0, 0)` of the output array after the run is what the last point of row `b` left in the output block. -/
theorem out_eq (c : Dev nD) (i : S8x1x1.Idx) :
    (dats m 0 c).arrAt 2 cfg0.N i
      = k0_pay1 (stAt m c (4 * (i 0).val + 3) (last_lt i)).2 (ix3 (0 : Fin 1) (0 : Fin 1) (0 : Fin 1)) :=
  congrFun (out_arr m c) i

end Cert.BlockValue

end
-- ==== Proof.LibRowReduce.lean ====
/-
  A matrix reduced along one axis, read at an index, at the ideal values.

  For an `[a, b]` matrix `src`: the reduction by `max` along the columns (axis 1) is, at row `i`, the fold of `max`
  from the accumulator's value over `src (i, k)`, `k < b`; the reduction by `+` along the columns is, at row `i`,
  `Σ_k src (i, k)`; and the reduction by `+` along the rows (axis 0) is, at column `j`, `Σ_i src (i, j)`. Arbitrary
  extents and any float format. (The library states these over the reduced shape's own index `h.lift j k`; here the
  index is spelt by its two coordinates.)
-/
import Idealize.ShloMosaic.PureOps.Ideal.Laws
import Idealize.ShloMosaic.Lib.ValueIdx

noncomputable section

namespace Idealize.ShloMosaic.RowReduce

open Idealize.ShloMosaic Idealize.ShloMosaic.ValueIdx

variable {a b : ℕ} {φ : FTy}

/-- The row maxima: at row `i`, the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (Finset.fold max (Ideal.ofBits φ acc) · (Finset.univ : Finset (Fin b))) (funext fun k => ?_)
  exact congrArg src (funext fun c => Fin.ext (by match c with | ⟨0, _⟩ => rfl | ⟨1, _⟩ => rfl))

/-- The row sums: at row `i`, the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => ?_
  exact congrArg src (funext fun c => Fin.ext (by match c with | ⟨0, _⟩ => rfl | ⟨1, _⟩ => rfl))

/-- The column sums: at column `j`, the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun c => Fin.ext (by match c with | ⟨0, _⟩ => rfl | ⟨1, _⟩ => rfl))

end Idealize.ShloMosaic.RowReduce

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.LibMatmulT.lean ====
/-
  A matrix times a transposed matrix, read at an index.

  With the dimension numbers "contract axis 1 of the left operand against axis 1 of the right operand, no batch axis",
  the product of an [M, K] matrix `A` and an [N, K] matrix `B` is `A · Bᵀ`: its entry at `(a, b)` is
  `Σ_c A[a, c] · B[b, c]`. Stated at the ideal values for a kernel's matrix unit accumulating into zeros (only the
  sum is left) and into any accumulator (the accumulator's entry plus the sum), for arbitrary extents.
-/
import Idealize.ShloMosaic.PureOps.Ideal
import Idealize.ShloMosaic.PureOps.Ideal.Laws
import Idealize.ShloMosaic.Lib.ValueIdx

noncomputable section

namespace Idealize.ShloMosaic.MatmulT

open Idealize.ShloMosaic Idealize.ShloMosaic.ValueIdx

variable {M K N : ℕ} {φ₁ φ₂ : FTy}

/-- The left operand of `A · Bᵀ` is read at `(a, c)` and the right one at `(b, c)`, for the contraction position `c`. -/
theorem idx_apply (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
        ((contrEquiv1 (⟨[1], [1], [0], [0], [], [], w⟩ : DotDims ⟨2, ![M, K]⟩ ⟨2, ![N, K]⟩ ⟨2, ![M, N]⟩) K rfl rfl).symm c) = ix2 a c
    ∧ (⟨[1], [1], [0], [0], [], [], w⟩ : DotDims ⟨2, ![M, K]⟩ ⟨2, ![N, K]⟩ ⟨2, ![M, N]⟩).rhsIdx (ix2 a b)
        ((contrEquiv1 (⟨[1], [1], [0], [0], [], [], w⟩ : DotDims ⟨2, ![M, K]⟩ ⟨2, ![N, K]⟩ ⟨2, ![M, N]⟩) K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; rfl
    | ⟨1, _⟩ => simp [DotDims.rhsIdx]; exact c2

/-- `A · Bᵀ` accumulated into `acc`, at `(a, b)`: the accumulator's entry plus `Σ_c A[a, c] · B[b, c]`. -/
theorem matmul_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (acc : FVec Ideal ⟨2, ![M, N]⟩ .f32) (a : Fin M) (b : Fin N) :
    FloatOps.matmul (⟨[1], [1], [0], [0], [], [], w⟩ : DotDims ⟨2, ![M, K]⟩ ⟨2, ![N, K]⟩ ⟨2, ![M, N]⟩) prec A B acc (ix2 a b)
      = acc (ix2 a b) + ∑ c : Fin K, A (ix2 a c) * B (ix2 b c) := by
  rw [Ideal.matmul_apply,
    ← Equiv.sum_comp (contrEquiv1 (⟨[1], [1], [0], [0], [], [], w⟩ : DotDims ⟨2, ![M, K]⟩ ⟨2, ![N, K]⟩ ⟨2, ![M, N]⟩) K rfl rfl).symm]
  refine congrArg (acc (ix2 a b) + ·) (Finset.sum_congr rfl fun c _ => ?_)
  rw [(idx_apply w a b c).1, (idx_apply w a b c).2]

/-- `A · Bᵀ` into the zero accumulator, at `(a, b)`: `Σ_c A[a, c] · B[b, c]`. -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    FloatOps.matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [matmul_apply]
  show Ideal.ofBits .f32 0x00000000#32 + _ = _
  rw [Ideal.ofBits_zero_f32, zero_add]

end Idealize.ShloMosaic.MatmulT

end
-- ==== Proof.PayValue.lean ====
/-
  The kernel body's pure values read at an index, on real-valued inputs.

  Every input array is the image of an array of reals under the coercion ℝ → EReal. The body's arithmetic on such
  arrays stays inside the reals: squared norms of rows, inner products of rows, a clamp at zero, a scaling by the
  constant −1/102400, an exponential, and row sums. Each stored value is read here, entry by entry, as the coercion of
  a real-valued closed form.
-/
import proofs.«110182_j41772851921541_2_alg».proof.Proof.Gen.KernelIdeal.Skeleton
import proofs.«110182_j41772851921541_2_alg».proof.Proof.LibRealArray
import proofs.«110182_j41772851921541_2_alg».proof.Proof.LibRowReduce
import proofs.«110182_j41772851921541_2_alg».proof.Proof.LibKeepdims
import proofs.«110182_j41772851921541_2_alg».proof.Proof.LibMatmulT
import proofs.«110182_j41772851921541_2_alg».proof.Proof.LibSumIdx3
import Idealize.ShloMosaic.Lib.ValueLayout
import Idealize.ShloMosaic.Lib.Pipeline.Value

noncomputable section

namespace Cert.PayValue

open Idealize.ShloMosaic Idealize.ShloMosaic.ValueIdx Cert.KernelIdeal Cert.KernelIdeal.Gen Cert.RealArray

/-- The coercion ℝ → EReal commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The two zero fills -/

/-- The accumulator column is reset to zeros. -/
theorem pay3_eq : k0_pay3 (F := Ideal) = cv (fun _ => (0 : ℝ)) := by
  funext i
  unfold k0_pay3
  rw [shapeCast_self]
  exact word_zero

/-- The partial total is reset to zero. -/
theorem pay4_eq : k0_pay4 (F := Ideal) = cv (fun _ => (0 : ℝ)) := by
  funext i
  unfold k0_pay4
  exact word_zero

/-! ## The total of the accumulator column -/

/-- The sum of all 512 entries of the accumulator column, stored in every (that is, the one) entry of a [1,1,1] block. -/
theorem pay1_eq (a : S512x1.Idx → ℝ) :
    k0_pay1 (F := Ideal) (cv a) = cv (fun _ => ∑ r : Fin 512, a (ix2 r 0)) := by
  funext i
  unfold k0_pay1
  dsimp only
  rw [broadcast_apply]
  unfold extractAt
  refine (shapeCast_apply _ _ _ (ix1 (0 : Fin 1)) ?_).trans ?_
  · rw [Shape.rowMajor_val_one, Shape.rowMajor_val_three]; rfl
  refine (Ideal.multiReduction_add_total _ _ _ (fun b => by match b with | ⟨0, _⟩ => rfl) _ _ _).trans ?_
  rw [Cert.Lib.SumIdx3.sum_idx3, Fin.sum_univ_one, cv_apply, coe_sum]
  refine Finset.sum_congr rfl fun r _ => ?_
  rw [Fin.sum_univ_one, shapeCast_ab_1ab_apply]
  rfl

/-! ## The squared norms of the 2048 rows -/

/-- Entry `m` of the row of squared norms: the [2048,256] matrix squared entrywise, summed along each row, the
    resulting vector cast to a column and transposed to a [1,2048] row. -/
theorem pay2_apply (k : S1x2048x256.Idx → ℝ) (u : Fin 1) (m : Fin 2048) :
    k0_pay2 (F := Ideal) (cv k) (ix2 u m) = ((∑ f : Fin 256, k (ix3 0 m f) * k (ix3 0 m f) : ℝ) : EReal) := by
  unfold k0_pay2
  dsimp only
  rw [shapeCast_self]
  refine (transpose_ix2_apply _ _ u m).trans ?_
  refine (Keepdims.shapeCast_a_a1_apply _ _ m u).trans ?_
  refine (RowReduce.rowSum_apply _ _ _ _ _ m).trans ?_
  rw [coe_sum]
  refine Finset.sum_congr rfl fun f _ => ?_
  rw [mulf_apply, shapeCast_1ab_ab_apply, cv_apply, EReal.coe_mul]

/-- The row of squared norms as a real-valued array. -/
theorem pay2_eq (k : S1x2048x256.Idx → ℝ) :
    k0_pay2 (F := Ideal) (cv k) = cv (fun j => ∑ f : Fin 256, k (ix3 0 (j 1) f) * k (ix3 0 (j 1) f)) := by
  funext j
  exact (congrArg (k0_pay2 (F := Ideal) (cv k)) (eq_ix2 j)).trans (pay2_apply k (j 0) (j 1))

/-! ## The plain matrix product read at an index -/

section Plain

variable {M K N : ℕ} {φ₁ φ₂ : FTy}

/-- With the dimension numbers "contract axis 1 of the left operand against axis 0 of the right one, no batch axis", the
    left operand is read at `(a, c)` and the right one at `(c, b)`, for the contraction position `c`. -/
theorem plain_idx (w : DotDims.WF ⟨2, ![M, K]⟩ ⟨2, ![K, N]⟩ ⟨2, ![M, N]⟩ [1] [0] [0] [1] [] []) (a : Fin M) (b : Fin N) (c : Fin K) :
    (⟨[1], [0], [0], [1], [], [], w⟩ : DotDims ⟨2, ![M, K]⟩ ⟨2, ![K, N]⟩ ⟨2, ![M, N]⟩).lhsIdx (ix2 a b)
        ((contrEquiv1 (⟨[1], [0], [0], [1], [], [], w⟩ : DotDims ⟨2, ![M, K]⟩ ⟨2, ![K, N]⟩ ⟨2, ![M, N]⟩) K rfl rfl).symm c) = ix2 a c
    ∧ (⟨[1], [0], [0], [1], [], [], w⟩ : DotDims ⟨2, ![M, K]⟩ ⟨2, ![K, N]⟩ ⟨2, ![M, N]⟩).rhsIdx (ix2 a b)
        ((contrEquiv1 (⟨[1], [0], [0], [1], [], [], w⟩ : DotDims ⟨2, ![M, K]⟩ ⟨2, ![K, N]⟩ ⟨2, ![M, N]⟩) K rfl rfl).symm c) = ix2 c b := by
  have c2 := contrEquiv1_symm_val
    (⟨[1], [0], [0], [1], [], [], w⟩ : DotDims ⟨2, ![M, K]⟩ ⟨2, ![K, N]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; exact c2
    | ⟨1, _⟩ => simp [DotDims.rhsIdx]; rfl

/-- The product of an [M, K] matrix `A` and a [K, N] matrix `B` into the zero accumulator, at `(a, b)`:
    `Σ_c A[a, c] · B[c, b]`. -/
theorem plain_matmul_zero_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (a : Fin M) (b : Fin N) :
    FloatOps.matmul (⟨[1], [0], [0], [1], [], [], w⟩ : DotDims ⟨2, ![M, K]⟩ ⟨2, ![K, N]⟩ ⟨2, ![M, N]⟩) prec A B
        (constant ⟨2, ![M, N]⟩ .f32 0x00000000#32) (ix2 a b)
      = ∑ c : Fin K, A (ix2 a c) * B (ix2 c b) := by
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  rw [(plain_idx w a b c).1, (plain_idx w a b c).2]

end Plain

/-! ## The accumulated row sums of the pair contributions -/

/-- The coercion ℝ → EReal commutes with `max`. -/
theorem coe_max (x y : ℝ) : ((max x y : ℝ) : EReal) = max (x : EReal) (y : EReal) :=
  EReal.coe_strictMono.monotone.map_max

/-- The named scale is the real −1/102400. -/
theorem neg_inv :
    Named.named (F := Ideal) κ "neg_inv_102400" (φ := .f32) 0xB723D70A#32 = ((-1 / 102400 : ℝ) : EReal) :=
  IdealRules.named_const.ideal_named_scalar _ _ _ _ rfl

/-- The squared norm of row `r` of a [1,512,256] block, kept as the column [512,1]: the block viewed [512,256], squared
    entrywise, summed along each row, the resulting vector cast to a column. -/
theorem norms_col (q : S1x512x256.Idx → ℝ) (h₁ : S1x512x256.ShapeCasts S512x256) (h₂ : S512x256.Reduces [1] S512)
    (h₃ : S512.ShapeCasts S512x1) (r : Fin 512) (u : Fin 1) :
    shapeCast S512x1 (multiReduction .add [1] S512 (mulf (shapeCast S512x256 (cv q) h₁) (shapeCast S512x256 (cv q) h₁))
        0x00000000#32 h₂ (.inl rfl) rfl) h₃ (ix2 r u)
      = ((∑ f : Fin 256, q (ix3 0 r f) * q (ix3 0 r f) : ℝ) : EReal) := by
  refine (Keepdims.shapeCast_a_a1_apply _ _ r u).trans ?_
  refine (RowReduce.rowSum_apply _ _ _ _ _ r).trans ?_
  rw [coe_sum]
  refine Finset.sum_congr rfl fun f _ => ?_
  rw [mulf_apply, shapeCast_1ab_ab_apply, cv_apply, EReal.coe_mul]

/-- The inner product of row `r` of the first block and row `m` of the second: the first block viewed [512,256] times the
    transpose of the second viewed [2048,256], into a zero accumulator (the narrowing of the operands changes no value). -/
theorem dot_entry (q : S1x512x256.Idx → ℝ) (k : S1x2048x256.Idx → ℝ) (h₁ : S1x512x256.ShapeCasts S512x256)
    (h₂ : S1x2048x256.ShapeCasts S2048x256) (hb : FTy.bits .bf16 < FTy.bits .f32)
    (ht : S2048x256.Transposes [1, 0] S256x2048) (r : Fin 512) (m : Fin 2048) :
    matmul dot_S512x256_S256x2048_S512x2048_1_0_0_1_n_n none (truncf .bf16 (shapeCast S512x256 (cv q) h₁) hb)
        (transpose S256x2048 [1, 0] (truncf .bf16 (shapeCast S2048x256 (cv k) h₂) hb) ht)
        (constant S512x2048 .f32 0x00000000#32) (ix2 r m)
      = ((∑ f : Fin 256, q (ix3 0 r f) * k (ix3 0 m f) : ℝ) : EReal) := by
  refine (plain_matmul_zero_apply dot_S512x256_S256x2048_S512x2048_1_0_0_1_n_n_wf none _ _ r m).trans ?_
  rw [coe_sum]
  refine Finset.sum_congr rfl fun f _ => ?_
  rw [truncf_apply, transpose_ix2_apply, truncf_apply, shapeCast_1ab_ab_apply, shapeCast_1ab_ab_apply, cv_apply, cv_apply,
    EReal.coe_mul]

/-- One pair's contribution at an entry: from the squared norm `X` of the row, the squared norm `Y` of the column's point
    and their inner product `Z`, the value `exp (max (X + Y − 2 Z) 0 · (−1/102400))`. -/
theorem chain_apply (A B C : FVec Ideal S512x2048 .f32) (X Y Z : ℝ) (i : S512x2048.Idx)
    (hA : A i = ((X : ℝ) : EReal)) (hB : B i = ((Y : ℝ) : EReal)) (hC : C i = ((Z : ℝ) : EReal)) :
    exp (mulf (maximumf (subf (addf A B) (mulf (broadcast S512x2048 (Scalar.ofBits (F := Ideal) .f32 0x40000000#32)) C))
        (broadcast S512x2048 (Scalar.ofBits (F := Ideal) .f32 0x00000000#32)))
        (broadcast S512x2048 (Named.named (F := Ideal) κ "neg_inv_102400" (φ := .f32) 0xB723D70A#32))) i
      = ((Real.exp (max (X + Y - 2 * Z) 0 * (-1 / 102400)) : ℝ) : EReal) := by
  show Ideal.exp (max (A i + B i - Ideal.ofBits .f32 0x40000000#32 * C i) (Ideal.ofBits .f32 0x00000000#32)
      * Named.named (F := Ideal) κ "neg_inv_102400" (φ := .f32) 0xB723D70A#32) = _
  rw [hA, hB, hC, word_two, word_zero, neg_inv, ← EReal.coe_add, ← EReal.coe_mul, ← EReal.coe_sub, ← coe_max,
    ← EReal.coe_mul]
  rfl

/-- Row `r` of the new accumulator column: the accumulator's entry plus the sum over the 2048 columns `m` of
    `exp (max (‖q_r‖² + s_m − 2 ⟨q_r, k_m⟩) 0 · (−1/102400))`. -/
theorem pay5_apply (q : S1x512x256.Idx → ℝ) (k : S1x2048x256.Idx → ℝ) (s : S1x2048.Idx → ℝ) (a : S512x1.Idx → ℝ)
    (r : Fin 512) (u : Fin 1) :
    k0_pay5 (F := Ideal) (cv q) (cv k) (cv s) (cv a) (ix2 r u)
      = ((a (ix2 r u) + ∑ m : Fin 2048, Real.exp (max ((∑ f : Fin 256, q (ix3 0 r f) * q (ix3 0 r f)) + s (ix2 0 m)
          - 2 * ∑ f : Fin 256, q (ix3 0 r f) * k (ix3 0 m f)) 0 * (-1 / 102400)) : ℝ) : EReal) := by
  unfold k0_pay5
  dsimp only
  rw [shapeCast_self, addf_apply, cv_apply, EReal.coe_add]
  refine congrArg (((a (ix2 r u) : ℝ) : EReal) + ·) ?_
  refine (Keepdims.shapeCast_a_a1_apply _ _ r u).trans ?_
  refine (RowReduce.rowSum_apply _ _ _ _ _ r).trans ?_
  rw [coe_sum]
  refine Finset.sum_congr rfl fun m _ => ?_
  refine chain_apply _ _ _ _ _ _ (ix2 r m) ?_ ?_ ?_
  · exact (Keepdims.broadcastTo_a1_ab_apply _ _ r m).trans (norms_col q _ _ _ r 0)
  · exact (broadcastTo_1b_ab_apply _ _ r m).trans rfl
  · exact dot_entry q k _ _ _ _ r m

/-- The new accumulator column as a real-valued array. -/
theorem pay5_eq (q : S1x512x256.Idx → ℝ) (k : S1x2048x256.Idx → ℝ) (s : S1x2048.Idx → ℝ) (a : S512x1.Idx → ℝ) :
    k0_pay5 (F := Ideal) (cv q) (cv k) (cv s) (cv a)
      = cv (fun j => a j + ∑ m : Fin 2048, Real.exp (max ((∑ f : Fin 256, q (ix3 0 (j 0) f) * q (ix3 0 (j 0) f)) + s (ix2 0 m)
          - 2 * ∑ f : Fin 256, q (ix3 0 (j 0) f) * k (ix3 0 m f)) 0 * (-1 / 102400))) := by
  funext j
  obtain ⟨r, u, rfl⟩ : ∃ r u, j = ix2 r u := ⟨j 0, j 1, eq_ix2 j⟩
  exact pay5_apply q k s a r u

end Cert.PayValue

end
-- ==== Proof.AccValue.lean ====
/-
  What the two carried buffers hold after each grid point, over the reals.

  The grid runs over 8 clouds of 4 tiles: point `t` works on tile `t % 4` (512 query points) of cloud `t / 4`. Given
  that the two input blocks at every point are the images of real arrays — the tile's 512 points and the cloud's 2048
  points —, the first carried buffer holds the squared norms of the cloud's points throughout the cloud's four points, and
  the second one, after the cloud's last point, holds for each of the 512 rows the four tiles' row sums of pair
  contributions, added tile after tile from zero. Their total is the sum over all ordered pairs of the cloud.
-/
import proofs.«110182_j41772851921541_2_alg».proof.Proof.FrameData
import proofs.«110182_j41772851921541_2_alg».proof.Proof.PayValue
import proofs.«110182_j41772851921541_2_alg».proof.Proof.TailValue
import proofs.«110182_j41772851921541_2_alg».proof.Proof.Spec
import proofs.«110182_j41772851921541_2_alg».proof.Proof.LibRealArray

noncomputable section

namespace Cert.AccValue

open Idealize.ShloMosaic Idealize.ShloMosaic.ValueIdx Cert.KernelIdeal Cert.KernelIdeal.Gen Cert.KernelIdeal.Frame
  Cert.RealArray Cert.PayValue Cert.TailValue

/-- The cloud grid point `t` works on. -/
def cl (t : Fin cfg0.N) : Fin 8 := ⟨t.val / 4, by have := N_eq; have := t.isLt; omega⟩

/-- The tile (quarter of the cloud's rows) grid point `t` works on. -/
def qi (t : Fin cfg0.N) : Fin 4 := ⟨t.val % 4, Nat.mod_lt _ (by decide)⟩

/-- The input array by its three coordinates. -/
abbrev X (x : S8x2048x256.Idx → ℝ) : Fin 8 → Fin 2048 → Fin 256 → ℝ := fun b l f => x (ix3 b l f)

/-- The sum of the pair contributions of row `r` of tile `i` of cloud `b` against all 2048 points of the cloud. -/
def Rw (x : S8x2048x256.Idx → ℝ) (b : Fin 8) (i : Fin 4) (r : Fin 512) : ℝ :=
  ∑ mm : Fin 2048, Cert.Spec.eK (X x) b (row i r) mm

section

variable (m : (ℓ : Loc nD τ sig) → Buf (Elt Ideal) ℓ) (c : Dev nD) (x : S8x2048x256.Idx → ℝ)

/-- The squared norms of the cloud's points, made from the cloud's block. -/
theorem sq_first
    (h1 : ∀ t : Fin cfg0.N, iblk m c 1 t = cv (fun y : S1x2048x256.Idx => x (ix3 (cl t) (y 1) (y 2))))
    (t : Fin cfg0.N) :
    k0_pay2 (F := Ideal) (iblk m c 1 t) = cv (fun j : S1x2048.Idx => Cert.Spec.sq (X x) (cl t) (j 1)) := by
  rw [h1 t, pay2_eq]
  rfl

/-- One point's step on the running row sums: to each row's entry it adds the row's sum of pair contributions. -/
theorem tile
    (h0 : ∀ t : Fin cfg0.N, iblk m c 0 t = cv (fun y : S1x512x256.Idx => x (ix3 (cl t) (row (qi t) (y 1)) (y 2))))
    (h1 : ∀ t : Fin cfg0.N, iblk m c 1 t = cv (fun y : S1x2048x256.Idx => x (ix3 (cl t) (y 1) (y 2))))
    (t : Fin cfg0.N) (a : S512x1.Idx → ℝ) :
    k0_pay5 (F := Ideal) (iblk m c 0 t) (iblk m c 1 t) (cv (fun j : S1x2048.Idx => Cert.Spec.sq (X x) (cl t) (j 1))) (cv a)
      = cv (fun j : S512x1.Idx => a j + Rw x (cl t) (qi t) (j 0)) := by
  rw [h0 t, h1 t, pay5_eq]
  rfl

/-- After every point the first carried buffer holds the squared norms of the point's cloud. -/
theorem sq_aux
    (h1 : ∀ t : Fin cfg0.N, iblk m c 1 t = cv (fun y : S1x2048x256.Idx => x (ix3 (cl t) (y 1) (y 2)))) :
    ∀ (n : ℕ) (hn : n < cfg0.N),
      (stAt m c n hn).1 = cv (fun j : S1x2048.Idx => Cert.Spec.sq (X x) (cl ⟨n, hn⟩) (j 1))
  | 0, hn => (congrArg Prod.fst (stAt_first m c ⟨0, hn⟩ rfl)).trans (sq_first m c x h1 ⟨0, hn⟩)
  | n + 1, hn => by
    by_cases h : (n + 1) % 4 = 0
    · exact (congrArg Prod.fst (stAt_first m c ⟨n + 1, hn⟩ h)).trans (sq_first m c x h1 ⟨n + 1, hn⟩)
    · refine (congrArg Prod.fst (stAt_later m c ⟨n + 1, hn⟩ h)).trans ?_
      refine (sq_aux h1 n (Nat.lt_of_succ_lt hn)).trans ?_
      have e : cl ⟨n, Nat.lt_of_succ_lt hn⟩ = cl ⟨n + 1, hn⟩ := Fin.ext (by show n / 4 = (n + 1) / 4; omega)
      rw [e]

/-- (1) After point `t` the first carried buffer holds the squared norms of cloud `t / 4`. -/
theorem sq_eq
    (h1 : ∀ t : Fin cfg0.N, iblk m c 1 t = cv (fun y : S1x2048x256.Idx => x (ix3 (cl t) (y 1) (y 2))))
    (t : Fin cfg0.N) :
    (stAt m c t.val t.isLt).1 = cv (fun j : S1x2048.Idx => Cert.Spec.sq (X x) (cl t) (j 1)) :=
  sq_aux m c x h1 t.val t.isLt

/-- At the first point of a cloud the running row sums are the first tile's, added to zero. -/
theorem acc_first
    (h0 : ∀ t : Fin cfg0.N, iblk m c 0 t = cv (fun y : S1x512x256.Idx => x (ix3 (cl t) (row (qi t) (y 1)) (y 2))))
    (h1 : ∀ t : Fin cfg0.N, iblk m c 1 t = cv (fun y : S1x2048x256.Idx => x (ix3 (cl t) (y 1) (y 2))))
    (t : Fin cfg0.N) (h : t.val % 4 = 0) :
    (stAt m c t.val t.isLt).2 = cv (fun j : S512x1.Idx => 0 + Rw x (cl t) (qi t) (j 0)) := by
  refine (congrArg Prod.snd (stAt_first m c t h)).trans ?_
  show k0_pay5 (F := Ideal) (iblk m c 0 t) (iblk m c 1 t) (k0_pay2 (F := Ideal) (iblk m c 1 t)) (k0_pay3 (F := Ideal)) = _
  rw [sq_first m c x h1 t, pay3_eq]
  exact tile m c x h0 h1 t (fun _ => 0)

/-- At a later point of a cloud the point's tile is added to the running row sums. -/
theorem acc_later
    (h0 : ∀ t : Fin cfg0.N, iblk m c 0 t = cv (fun y : S1x512x256.Idx => x (ix3 (cl t) (row (qi t) (y 1)) (y 2))))
    (h1 : ∀ t : Fin cfg0.N, iblk m c 1 t = cv (fun y : S1x2048x256.Idx => x (ix3 (cl t) (y 1) (y 2))))
    (t : Fin cfg0.N) (h : ¬ t.val % 4 = 0) (a : S512x1.Idx → ℝ)
    (hprev : (stAt m c (t.val - 1) (Nat.lt_of_le_of_lt (Nat.sub_le _ _) t.isLt)).2 = cv a) :
    (stAt m c t.val t.isLt).2 = cv (fun j : S512x1.Idx => a j + Rw x (cl t) (qi t) (j 0)) := by
  refine (congrArg Prod.snd (stAt_later m c t h)).trans ?_
  show k0_pay5 (F := Ideal) (iblk m c 0 t) (iblk m c 1 t)
    (stAt m c (t.val - 1) (Nat.lt_of_le_of_lt (Nat.sub_le _ _) t.isLt)).1
    (stAt m c (t.val - 1) (Nat.lt_of_le_of_lt (Nat.sub_le _ _) t.isLt)).2 = _
  have e : cl ⟨t.val - 1, Nat.lt_of_le_of_lt (Nat.sub_le _ _) t.isLt⟩ = cl t :=
    Fin.ext (by show (t.val - 1) / 4 = t.val / 4; omega)
  rw [hprev, sq_aux m c x h1 (t.val - 1) (Nat.lt_of_le_of_lt (Nat.sub_le _ _) t.isLt), e]
  exact tile m c x h0 h1 t a

/-- (2) After the last point of cloud `b` the running row sums hold, for each of the 512 rows, the four tiles' row sums added
    tile after tile from zero. -/
theorem acc_eq
    (h0 : ∀ t : Fin cfg0.N, iblk m c 0 t = cv (fun y : S1x512x256.Idx => x (ix3 (cl t) (row (qi t) (y 1)) (y 2))))
    (h1 : ∀ t : Fin cfg0.N, iblk m c 1 t = cv (fun y : S1x2048x256.Idx => x (ix3 (cl t) (y 1) (y 2))))
    (b : Fin 8) :
    (stAt m c (4 * b.val + 3) (by have := N_eq; have := b.isLt; omega)).2
      = cv (fun j : S512x1.Idx => (((0 + Rw x b 0 (j 0)) + Rw x b 1 (j 0)) + Rw x b 2 (j 0)) + Rw x b 3 (j 0)) := by
  have hb := b.isLt
  have hN := N_eq
  have A0 := acc_first m c x h0 h1 ⟨4 * b.val, by omega⟩ (by show (4 * b.val) % 4 = 0; omega)
  have A1 := acc_later m c x h0 h1 ⟨4 * b.val + 1, by omega⟩ (by show ¬ (4 * b.val + 1) % 4 = 0; omega) _ A0
  have A2 := acc_later m c x h0 h1 ⟨4 * b.val + 2, by omega⟩ (by show ¬ (4 * b.val + 2) % 4 = 0; omega) _ A1
  have A3 := acc_later m c x h0 h1 ⟨4 * b.val + 3, by omega⟩ (by show ¬ (4 * b.val + 3) % 4 = 0; omega) _ A2
  have c0 : cl ⟨4 * b.val, by omega⟩ = b := Fin.ext (by show (4 * b.val) / 4 = b.val; omega)
  have c1 : cl ⟨4 * b.val + 1, by omega⟩ = b := Fin.ext (by show (4 * b.val + 1) / 4 = b.val; omega)
  have c2 : cl ⟨4 * b.val + 2, by omega⟩ = b := Fin.ext (by show (4 * b.val + 2) / 4 = b.val; omega)
  have c3 : cl ⟨4 * b.val + 3, by omega⟩ = b := Fin.ext (by show (4 * b.val + 3) / 4 = b.val; omega)
  have q0 : qi ⟨4 * b.val, by omega⟩ = 0 := Fin.ext (by show (4 * b.val) % 4 = 0; omega)
  have q1 : qi ⟨4 * b.val + 1, by omega⟩ = 1 := Fin.ext (by show (4 * b.val + 1) % 4 = 1; omega)
  have q2 : qi ⟨4 * b.val + 2, by omega⟩ = 2 := Fin.ext (by show (4 * b.val + 2) % 4 = 2; omega)
  have q3 : qi ⟨4 * b.val + 3, by omega⟩ = 3 := Fin.ext (by show (4 * b.val + 3) % 4 = 3; omega)
  rw [c0, c1, c2, c3, q0, q1, q2, q3] at A3
  exact A3

/-- (3) The cloud's output number: the sum of the pair contributions over all ordered pairs of the cloud's points. -/
theorem out_entry
    (h0 : ∀ t : Fin cfg0.N, iblk m c 0 t = cv (fun y : S1x512x256.Idx => x (ix3 (cl t) (row (qi t) (y 1)) (y 2))))
    (h1 : ∀ t : Fin cfg0.N, iblk m c 1 t = cv (fun y : S1x2048x256.Idx => x (ix3 (cl t) (y 1) (y 2))))
    (b : Fin 8) :
    (k0_pay1 (F := Ideal) (stAt m c (4 * b.val + 3) (by have := N_eq; have := b.isLt; omega)).2) (ix3 0 0 0)
      = ((∑ l : Fin 2048, ∑ mm : Fin 2048, Cert.Spec.eK (X x) b l mm : ℝ) : EReal) := by
  rw [acc_eq m c x h0 h1 b, pay1_eq, cv_apply]
  exact congrArg (fun v : ℝ => (v : EReal)) (rows_regroup (fun l => ∑ mm : Fin 2048, Cert.Spec.eK (X x) b l mm))

end

/-- (4) The eight clouds' sums, less the 16384 diagonal pairs, are the specification's total. -/
theorem total_eq (x : S8x2048x256.Idx → ℝ) :
    (∑ b : Fin 8, (∑ l : Fin 2048, ∑ mm : Fin 2048, Cert.Spec.eK (X x) b l mm)) - 16384 = Cert.Spec.totalK (X x) := rfl

end Cert.AccValue

end
-- ==== Proof.Assembly.lean ====
/-
  The two programs end with equal results.

  On finite inputs the argument array is the image of an array of reals. The kernel leaves, for each of the 8 clouds,
  the sum of the contributions of all ordered pairs of the cloud's points; the host adds the eight numbers, takes away the
  16384 diagonal pairs (each contributes exactly 1), divides by the pair count and takes the logarithm. The reference sums
  the contributions of the off-diagonal pairs only, divides by the same count and takes the logarithm. The two totals
  agree over the reals, so both results are one extended real.
-/
import proofs.«110182_j41772851921541_2_alg».proof.Defs
import proofs.«110182_j41772851921541_2_alg».proof.Proof.Gen.KernelIdeal
import proofs.«110182_j41772851921541_2_alg».proof.Proof.Gen.ReferenceIdeal
import proofs.«110182_j41772851921541_2_alg».proof.Proof.Gen.Pre_finite_inputs
import proofs.«110182_j41772851921541_2_alg».proof.Proof.Gen.ReferenceIdeal.Run
import proofs.«110182_j41772851921541_2_alg».proof.Proof.Gen.ReferenceIdeal.Read
import proofs.«110182_j41772851921541_2_alg».proof.Proof.Spec
import proofs.«110182_j41772851921541_2_alg».proof.Proof.LibRealArray
import proofs.«110182_j41772851921541_2_alg».proof.Proof.TailValue
import proofs.«110182_j41772851921541_2_alg».proof.Proof.RefTotal
import proofs.«110182_j41772851921541_2_alg».proof.Proof.FrameData
import proofs.«110182_j41772851921541_2_alg».proof.Proof.BlockValue
import proofs.«110182_j41772851921541_2_alg».proof.Proof.AccValue
import proofs.«110182_j41772851921541_2_alg».proof.Proof.FrameValue

noncomputable section

namespace Cert.Assembly

/-! ## The kernel's result -/

section Kernel

open Cert.KernelIdeal Cert.KernelIdeal.Gen Cert.KernelIdeal.Frame Cert.RealArray
open Idealize.ShloMosaic Idealize.ShloMosaic.TcCoe Idealize.ShloMosaic.ValueIdx Idealize.SL.Sem

variable (m : (ℓ : Loc nD τ sig) → Buf (Elt Ideal) ℓ) (c : Dev nD) (x : S8x2048x256.Idx → ℝ)

/-- The output array after the run: cloud `b`'s number is the sum of the contributions of all its ordered pairs. -/
theorem outArr_eq (hx : V m c main_arg0 = cv x) :
    (dats m 0 c).arrAt 2 cfg0.N = cv (fun i : S8x1x1.Idx =>
      ∑ l : Fin 2048, ∑ mm : Fin 2048, Cert.Spec.eK (fun b l f => x (ix3 b l f)) (i 0) l mm) := by
  rw [Cert.BlockValue.out_arr]
  funext i
  exact Cert.AccValue.out_entry m c x (fun t => Cert.BlockValue.iblk0_eq m c x hx t)
    (fun t => Cert.BlockValue.iblk1_eq m c x hx t) (i 0)

/-- The closing arithmetic on the eight numbers gives the logarithm of the specification's total over the count. -/
theorem kernel_value (hx : V m c main_arg0 = cv x) :
    Host.log (F := Ideal) (Host.divf (F := Ideal) (subf (Host.reduceAdd (F := Ideal) (outArr m c)
        (constant (F := Ideal) S_ .f32 0x00000000#32) reducesTo_S8x1x1_S_d0_1_2 h_S_)
        (constant (F := Ideal) S_ .f32 0x46800000#32)) (constant (F := Ideal) S_ .f32 0x4BFFE000#32))
      = Host.log (F := Ideal) (Host.divf (F := Ideal) (cv (fun _ => Cert.Spec.totalK (fun b l f => x (ix3 b l f))))
          (constant (F := Ideal) S_ .f32 0x4BFFE000#32)) := by
  have h1 : outArr m c = cv (fun i : S8x1x1.Idx =>
      ∑ l : Fin 2048, ∑ mm : Fin 2048, Cert.Spec.eK (fun b l f => x (ix3 b l f)) (i 0) l mm) := outArr_eq m c x hx
  rw [h1, Cert.TailValue.tail_eq]
  rfl

end Kernel

/-! ## The reference's result -/

section Reference

open Cert.ReferenceIdeal Cert.ReferenceIdeal.Gen Cert.ReferenceIdeal.Read Cert.RealArray
open Idealize.ShloMosaic Idealize.ShloMosaic.TcCoe Idealize.ShloMosaic.ValueIdx Idealize.SL.Sem

/-- The reference's last stage is the logarithm of the same total over the same count: summing all ordered pairs and
    taking away the diagonal ones is summing the off-diagonal ones. -/
theorem reference_value (x : S8x2048x256.Idx → ℝ) :
    val_main_v29 (F := Ideal) (cv x)
      = Host.log (F := Ideal) (Host.divf (F := Ideal) (cv (fun _ => Cert.Spec.totalK (fun b l f => x (ix3 b l f))))
          (constant (F := Ideal) S_ .f32 0x4BFFE000#32)) := by
  show Host.log (F := Ideal) (Host.divf (F := Ideal) (val_main_v27 (F := Ideal) (cv x)) (constant (F := Ideal) S_ .f32 0x4BFFE000#32)) = _
  rw [Cert.RefTotal.total_eq, ← Cert.Spec.totalK_eq_totalR]
  rfl

end Reference

/-! ## The two programs end with equal results -/

open Idealize.ShloMosaic Idealize.ShloMosaic.TcCoe Idealize.ShloMosaic.ValueIdx Idealize.SL.Sem Cert.RealArray

theorem algebraic : Cert.algebraic_KernelIdeal_ReferenceIdeal := by
  intro m ρ m' ρ' hpre hagree
  have hreal : ∀ c : Dev Cert.KernelIdeal.nD, ∃ x : Cert.KernelIdeal.S8x2048x256.Idx → ℝ,
      m ((c.tc : Thread Cert.KernelIdeal.nD Cert.KernelIdeal.τ).loc Cert.KernelIdeal.main_arg0) = cv x :=
    fun c => Cert.TailValue.real_of_pre _ (hpre c)
  choose x hx using hreal
  refine ⟨fun c => Host.log (F := Ideal) (Host.divf (F := Ideal) (cv (fun _ => Cert.Spec.totalK (fun b l f => x c (ix3 b l f))))
    (constant (F := Ideal) Cert.KernelIdeal.S_ .f32 0x4BFFE000#32)), ?_, ?_⟩
  · refine (θ_run Cert.KernelIdeal.defs _ _).mono (fun r h c => ⟨(h c).1.trans ?_, (h c).2⟩)
      (Cert.KernelIdeal.Frame.run_value m ρ)
    exact kernel_value m c (x c) (hx c)
  · refine (θ_run Cert.ReferenceIdeal.defs _ _).mono (fun r h c => ⟨(h c).1.trans ?_, (h c).2⟩)
      (Cert.ReferenceIdeal.Value.run (F := Ideal) m' ρ')
    have e : m' ((c.tc : Thread Cert.ReferenceIdeal.nD Cert.ReferenceIdeal.τ).loc Cert.ReferenceIdeal.main_arg0) = cv (x c) :=
      (hagree c).trans (hx c)
    rw [e]
    exact (Cert.ReferenceIdeal.Read.val_main_v29_eq _).trans (reference_value (x c))

end Cert.Assembly

end
-- ==== Proof.lean ====
/-
  The dispersion loss of a batch of 8 clouds of 2048 points in dimension 256: a tiled kernel against the plain formula.

  Both programs compute `log (T / (8 · 2048 · 2047))`, where `T` sums `exp(−d(p, q) / (2048 · 50))` over the ordered pairs of
  DISTINCT points `p ≠ q` of one cloud, `d(p, q) = max(‖p‖² + ‖q‖² − 2⟨p, q⟩, 0)`. The reference masks the diagonal pairs out
  of the sum. The kernel walks a grid of 8 × 4 points — cloud by cloud, 512 query points at a time —, keeps the squared norms
  of the cloud's points and 512 running row sums in two scratch buffers, writes one number per cloud (the sum over ALL ordered
  pairs of the cloud), and the host then adds the eight numbers and takes away 16384 = 8 · 2048, the number of diagonal pairs:
  a diagonal pair has `d(p, p) = 2‖p‖² − 2‖p‖² = 0` and contributes exactly 1 — for REAL inputs, which is where the
  precondition (every input finite) is used: on the extended reals `∞ − ∞` would not be 0. The kernel's scale is the one
  constant `−1/102400`, named as that rational; the reference divides by 2048 and then by 50.

  The kernel's region reads its one argument array through two windows (the tile of queries and the whole cloud); its run is
  assembled from the body's three cases (first, middle and last point of a cloud), the launch of the region and the seven host
  operations after it (`Frame…` modules, for any float instance; the `KFrame…` modules are the same for the word-level program).
  The value side: the body's arithmetic on real inputs (`PayValue`), the blocks and the output array (`BlockValue`), the four
  points of a cloud accumulated (`AccValue`), the host tail and finiteness (`TailValue`), the reference's total (`RefTotal`),
  the two totals equal over the reals (`Spec`), and their assembly (`Assembly`).
-/
import proofs.«110182_j41772851921541_2_alg».proof.Defs
import proofs.«110182_j41772851921541_2_alg».proof.Proof.Gen.Kernel
import proofs.«110182_j41772851921541_2_alg».proof.Proof.Gen.Kernel.Skeleton
import proofs.«110182_j41772851921541_2_alg».proof.Proof.Gen.Kernel.Launch
import proofs.«110182_j41772851921541_2_alg».proof.Proof.Gen.Kernel.Points
import proofs.«110182_j41772851921541_2_alg».proof.Proof.Gen.KernelIdeal
import proofs.«110182_j41772851921541_2_alg».proof.Proof.Gen.KernelIdeal.Skeleton
import proofs.«110182_j41772851921541_2_alg».proof.Proof.Gen.KernelIdeal.Launch
import proofs.«110182_j41772851921541_2_alg».proof.Proof.Gen.KernelIdeal.Points
import proofs.«110182_j41772851921541_2_alg».proof.Proof.Gen.ReferenceIdeal
import proofs.«110182_j41772851921541_2_alg».proof.Proof.Gen.ReferenceIdeal.Run
import proofs.«110182_j41772851921541_2_alg».proof.Proof.Gen.Pre_finite_inputs
import proofs.«110182_j41772851921541_2_alg».proof.Proof.KFrameValue
import proofs.«110182_j41772851921541_2_alg».proof.Proof.FrameValue
import proofs.«110182_j41772851921541_2_alg».proof.Proof.Assembly
import Idealize.ShloMosaic.Adequacy
import Idealize.ShloMosaic.Init

noncomputable section

namespace Cert.Proof

open Idealize.ShloMosaic Idealize.SL.Sem

/-- The word-level kernel program runs to the end and leaves its argument unchanged. -/
theorem frame_kernel : Cert.frame_Kernel := fun m ρ _ => Cert.Kernel.Frame.frame m ρ

/-- So does the idealized kernel program. -/
theorem frame_kernelIdeal : Cert.frame_KernelIdeal := fun m ρ _ => Cert.KernelIdeal.Frame.frame m ρ

/-- The reference is host operations only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the scale's word is read as the rational −1/102400 the table gives its name. -/
theorem preserves : Cert.preserves_Kernel_KernelIdeal :=
  IdealRules.named_const.statement Cert.KernelIdeal.κ "neg_inv_102400" .f32 0xB723D70A#32 ((-1 / 102400 : ℝ) : EReal) rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, Cert.Assembly.algebraic⟩

end Cert.Proof

end
